-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_t" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x50 : Shape := ⟨2, ![4096, 50]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn {F : FTy → Type} [FloatOps F] (main_arg0 : FVec F S4096x128 .f32) (main_arg1 : FVec F S4096x50 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x50 .f32 := Host.absf main_arg1
  let main_cst_0 : FVec F S_ .f32 := constant S_ .f32 0x7F800000#32
  let main_v5 : FVec F S4096x50 .f32 := broadcastInDim S4096x50 ![] bcast_S_S4096x50 main_cst_0
  let main_v6 : IVec S4096x50 1 := cmpf .olt main_v4 main_v5
  let main_c_1 : IVec S_ 1 := constantI S_ 1 1#1
  let main_v7 : IVec S_ 1 := (fun x v => Host.reduce IntOp.andi x v reducesTo_S4096x50_S_d0_1 h_S_) main_v6 main_c_1
  let main_v8 : IVec S_ 1 := andi main_v3 main_v7
  main_v8
-- ==== Kernel.lean ====
abbrev S4096x128 : Shape := ⟨2, ![4096, 128]⟩
abbrev S4096x50 : Shape := ⟨2, ![4096, 50]⟩
abbrev S_ : Shape := ⟨0, ![]⟩
abbrev S4096 : Shape := ⟨1, ![4096]⟩
abbrev S1x4096 : Shape := ⟨2, ![1, 4096]⟩
abbrev S256x128 : Shape := ⟨2, ![256, 128]⟩
abbrev S256x50 : Shape := ⟨2, ![256, 50]⟩
abbrev S256 : Shape := ⟨1, ![256]⟩
abbrev S128x4096 : Shape := ⟨2, ![128, 4096]⟩
abbrev S256x4096 : Shape := ⟨2, ![256, 4096]⟩
abbrev S256x1 : Shape := ⟨2, ![256, 1]⟩
abbrev S50x4096 : Shape := ⟨2, ![50, 4096]⟩

abbrev nBuf : Space → Nat
  | .hbm => 15
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S4096x50, .f32⟩
  | .hbm, ⟨2, _⟩ => ⟨S4096x128, .bf16⟩
  | .hbm, ⟨3, _⟩ => ⟨S4096x50, .bf16⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S256x50, .bf16⟩
  | .local _ .vmem, ⟨4, _⟩ => ⟨S256x50, .bf16⟩
  | .local _ .vmem, ⟨5, _⟩ => ⟨S4096x50, .bf16⟩
  | .local _ .vmem, ⟨6, _⟩ => ⟨S1x4096, .f32⟩
  | .local _ .vmem, ⟨7, _⟩ => ⟨S256, .f32⟩
  | .local _ .vmem, ⟨8, _⟩ => ⟨S256, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x50 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x50 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  reducesTo_S4096x50_S4096_d1 : S4096x50.ReducesTo [1] S4096
  h_S_ : 0 < S_.numel
  bcast_S4096_S1x4096_1 : S4096.BroadcastsInDim S1x4096 (![1] : Fin 1 → Fin S1x4096.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S256x50_S256x50_0_0 : ∀ a, (![0, 0] : Fin 2 → Nat) a + S256x50.size a ≤ S256x50.size a
  h_S256x50 : 0 < S256x50.numel
  shapeCasts_S256x50_S256x50 : S256x50.ShapeCasts S256x50
  inb_S4096x50_S4096x50_0_0 : ∀ a, (![0, 0] : Fin 2 → Nat) a + S4096x50.size a ≤ S4096x50.size a
  h_S4096x50 : 0 < S4096x50.numel
  shapeCasts_S4096x50_S4096x50 : S4096x50.ShapeCasts S4096x50
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  transposes_S4096x128_p1_0_S128x4096 : S4096x128.Transposes [1, 0] S128x4096
  reduces_S256x4096_S256 : S256x4096.Reduces [1] S256
  shapeCasts_S256_S256x1 : S256.ShapeCasts S256x1
  broadcasts_S256x1_S256x4096 : S256x1.Broadcasts S256x4096
  transposes_S4096x50_p1_0_S50x4096 : S4096x50.Transposes [1, 0] S50x4096
  reduces_S256x50_S256 : S256x50.Reduces [1] S256
  broadcasts_S1x4096_S256x4096 : S1x4096.Broadcasts S256x4096
  iota_S256x1_d0_w32 : S256x1.Iotas .tc 32 [0]
  iota_S1x4096_d1_w32 : S1x4096.Iotas .tc 32 [1]
  inb_S256_S256_0 : ∀ a, (![0] : Fin 1 → Nat) a + S256.size a ≤ S256.size a
  h_S256 : 0 < S256.numel
  reducesTo_S4096_S_d0 : S4096.ReducesTo [0] S_
  dot_S256x128_S128x4096_S256x4096_1_0_0_1_n_n_wf : DotDims.WF S256x128 S128x4096 S256x4096 [1] [0] [0] [1] [] []
  dot_S256x50_S50x4096_S256x4096_1_0_0_1_n_n_wf : DotDims.WF S256x50 S50x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S4096x128.size a
  hwx0_0 : ∀ i : grid0.Coords, EltTy.bits .bf16 = 32 ∨ (Rect.block (s := S4096x128) S256x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x50.size a ≤ S4096x50.size a
  hwx0_2 : ∀ i : grid0.Coords, EltTy.bits .bf16 = 32 ∨ (Rect.block (s := S4096x50) S256x50.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x50.size a ≤ S4096x50.size a
  hwx0_3 : ∀ i : grid0.Coords, EltTy.bits .bf16 = 32 ∨ (Rect.block (s := S4096x50) S4096x50.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S4096.size a
  hwx0_5 : ∀ i : grid0.Coords, EltTy.bits .f32 = 32 ∨ (Rect.block (s := S4096) S256.size (cc0_transform_5 i) (hinb0_5 i)).WholeWords (EltTy.packing .f32)

variable [Facts₀]

def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S256x50_S50x4096_S256x4096_1_0_0_1_n_n : DotDims S256x50 S50x4096 S256x4096 where
  lhsContracting := [1]
  rhsContracting := [0]
  lhsNonContracting := [0]
  rhsNonContracting := [1]
  lhsBatch := []
  rhsBatch := []
  wf := dot_S256x50_S50x4096_S256x4096_1_0_0_1_n_n_wf

abbrev win0_0 : Pipeline.Window sig grid0 :=
  Pipeline.Window.ofSpec (Memref.whole main_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x50 : Shape := ⟨2, ![4096, 50]⟩
abbrev S50x4096 : Shape := ⟨2, ![50, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S128x4096 : Shape := ⟨2, ![128, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x50, .f32⟩
  | .hbm, ⟨2, _⟩ => ⟨S50x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S128x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .i32⟩
  | .hbm, ⟨23, _⟩ => ⟨S4096x4096, .i32⟩
  | .hbm, ⟨24, _⟩ => ⟨S_, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .i1⟩
  | .hbm, ⟨47, _⟩ => ⟨S_, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_call0_v0 : Ref sig .tc := ⟨.hbm, 48, rfl⟩
abbrev main_call0_v1 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  transposes_S4096x50_S50x4096_1_0 : S4096x50.Transposes [1, 0] S50x4096
  reducesTo_S4096x50_S4096_d1 : S4096x50.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x128_S128x4096_1_0 : S4096x128.Transposes [1, 0] S128x4096
  bcast_S_S4096x4096 : S_.BroadcastsInDim S4096x4096 (![] : Fin 0 → Fin S4096x4096.rank)
  reducesTo_S4096x4096_S4096_d1 : S4096x4096.ReducesTo [1] S4096
  bcast_S_S4096x1 : S_.BroadcastsInDim S4096x1 (![] : Fin 0 → Fin S4096x1.rank)
  bcast_S_S4096 : S_.BroadcastsInDim S4096 (![] : Fin 0 → Fin S4096.rank)
  reducesTo_S4096_S_d0 : S4096.ReducesTo [0] S_
  dot_S4096x50_S50x4096_S4096x4096_1_0_0_1_n_n_wf : DotDims.WF S4096x50 S50x4096 S4096x4096 [1] [0] [0] [1] [] []
  dot_S4096x128_S128x4096_S4096x4096_1_0_0_1_n_n_wf : DotDims.WF S4096x128 S128x4096 S4096x4096 [1] [0] [0] [1] [] []

variable [Facts₀]

def dot_S4096x50_S50x4096_S4096x4096_1_0_0_1_n_n : DotDims S4096x50 S50x4096 S4096x4096 where
  lhsContracting := [1]
  rhsContracting := [0]
  lhsNonContracting := [0]
  rhsNonContracting := [1]
  lhsBatch := []
  rhsBatch := []
  wf := dot_S4096x50_S50x4096_S4096x4096_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.KBody.lean ====
/-
  The kernel body's run at one grid point, for any float instance: from staging buffers holding the five
  input blocks it ends with the inputs in place and the output buffer holding the row losses of the block's
  256 rows (the one stored value, a pure function of the loaded blocks and the point's coordinate); and the
  data the pipeline rule is instantiated at. The two whole-array operands are each read through TWO
  windows (a row block and the whole array), so each window holds half of that array.
-/
import proofs.«143601_j50706383896918_2_alg».proof.Proof.Gen.Kernel.Launch
import proofs.«143601_j50706383896918_2_alg».proof.Proof.Gen.Kernel.Skeleton
import proofs.«143601_j50706383896918_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffers when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the store take a whole buffer -/

abbrev rA : Rect S256x128 := Rect.unit (s := S256x128) ![0, 0] S256x128.size Gen.inb_S256x128_S256x128_0_0
abbrev rB : Rect S4096x128 := Rect.unit (s := S4096x128) ![0, 0] S4096x128.size Gen.inb_S4096x128_S4096x128_0_0
abbrev rC : Rect S256x50 := Rect.unit (s := S256x50) ![0, 0] S256x50.size Gen.inb_S256x50_S256x50_0_0
abbrev rD : Rect S4096x50 := Rect.unit (s := S4096x50) ![0, 0] S4096x50.size Gen.inb_S4096x50_S4096x50_0_0
abbrev rE : Rect S1x4096 := Rect.unit (s := S1x4096) ![0, 0] S1x4096.size Gen.inb_S1x4096_S1x4096_0_0
abbrev rO : Rect S256 := Rect.unit (s := S256) ![0] S256.size Gen.inb_S256_S256_0

/-- What the body stores: the row losses of the block, from the loaded blocks and the point's coordinate. -/
def stored (i : grid0.Coords) (x0 : Vec F S256x128 .bf16) (x1 : Vec F S4096x128 .bf16) (x2 : Vec F S256x50 .bf16) (x3 : Vec F S4096x50 .bf16) (x4 : Vec F S1x4096 .f32) : Vec F S256 .f32 :=
  k0_pay1 (k0_pay2 (View.ld x0 rA) (View.ld x1 rB)) (k0_pay4 i (View.ld x2 rC) (View.ld x3 rD) (View.ld x4 rE)) (k0_pay5 i (View.ld x0 rA) (View.ld x1 rB))

/-- The output buffer after the body: its one store. -/
def out5 (i : grid0.Coords) (x0 : Vec F S256x128 .bf16) (x1 : Vec F S4096x128 .bf16) (x2 : Vec F S256x50 .bf16) (x3 : Vec F S4096x50 .bf16) (x4 : Vec F S1x4096 .f32) : Vec F S256 .f32 :=
  View.canon [⟨rO, stored i x0 x1 x2 x3 x4⟩]

/-- The store covers the buffer. -/
theorem cover5 (p0 : Vec F S256 .f32) (y : S256.Idx) :
    ∃ pc ∈ ([⟨rO, p0⟩] : List (View.Piece (Elt F) S256 .f32)), y ∈ pc.1.set :=
  View.cover_of_tiled [⟨rO, p0⟩] S256.size (by rfl) y

/-! ## The body's triple -/

set_option maxHeartbeats 1000000 in
/-- The body on whole staging buffers, the inputs' at `x0 … x4` and the output's at anything, runs to the
    continuation with the inputs' as they were and the output's at `out5`. -/
theorem sound_kernel (c : Dev nD) (E : Set ℕ) (i : grid0.Coords)
    (arg1 : Memref sig .tc .vmem S256x128 .bf16) (harg1 : arg1.IsWhole) (arg2 : Memref sig .tc .vmem S4096x128 .bf16) (harg2 : arg2.IsWhole)
    (arg3 : Memref sig .tc .vmem S256x50 .bf16) (harg3 : arg3.IsWhole) (arg4 : Memref sig .tc .vmem S4096x50 .bf16) (harg4 : arg4.IsWhole)
    (arg5 : Memref sig .tc .vmem S1x4096 .f32) (harg5 : arg5.IsWhole) (arg6 : Memref sig .tc .vmem S256 .f32) (harg6 : arg6.IsWhole)
    (x0 : Vec F S256x128 .bf16) (x1 : Vec F S4096x128 .bf16) (x2 : Vec F S256x50 .bf16) (x3 : Vec F S4096x50 .bf16) (x4 : Vec F S1x4096 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 i x0 x1 x2 x3 x4)) -∗ K ⟨⟩))
      ⊢ wp frame (wpE (defs₀ (F := F)) Variants.none c none) E (cc0__hmlc_kernel i arg1 harg1 arg2 harg2 arg3 harg3 arg4 harg4 arg5 harg5 arg6 harg6) K := by
  simp only [cc0__hmlc_kernel_eq_skeleton]; unfold cc0__hmlc_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the one pipeline on core `c`: the arrays as the region finds them; after the body at point
    `t` each input's buffer at its block and the output's at `out5` of the input blocks at the point's coordinate;
    the scoped rest and the generator register pass through untouched; nothing owed. The features' array is read by
    windows 0 and 1 and the labels' by windows 2 and 3: each pair deals the array's share in halves. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (grid0.coords t) (iblk V c 0 t) (iblk V c 1 t) (iblk V c 2 t) (iblk V c 3 t) (iblk V c 4 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t
    = out5 (grid0.coords t) (iblk V c 0 t) (iblk V c 1 t) (iblk V c 2 t) (iblk V c 3 t) (iblk V c 4 t) := by dsimp only [dat0]

theorem before_0 (c : Dev nD) (t : Fin cfg0.N) (d) : (dat0 V c).before 0 t d = iblk V c 0 t :=
  before0_of V (dat0 V c) (A_eq V c 0) (after_0 V c) t d
theorem before_1 (c : Dev nD) (t : Fin cfg0.N) (d) : (dat0 V c).before 1 t d = iblk V c 1 t :=
  before1_of V (dat0 V c) (A_eq V c 1) (after_1 V c) t d
theorem before_2 (c : Dev nD) (t : Fin cfg0.N) (d) : (dat0 V c).before 2 t d = iblk V c 2 t :=
  before2_of V (dat0 V c) (A_eq V c 2) (after_2 V c) t d
theorem before_3 (c : Dev nD) (t : Fin cfg0.N) (d) : (dat0 V c).before 3 t d = iblk V c 3 t :=
  before3_of V (dat0 V c) (A_eq V c 3) (after_3 V c) t d
theorem before_4 (c : Dev nD) (t : Fin cfg0.N) (d) : (dat0 V c).before 4 t d = iblk V c 4 t :=
  before4_of V (dat0 V c) (A_eq V c 4) (after_4 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel` applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).Φ t.succ = (dat0 V c).Φ t.castSucc from rfl,
    show (dat0 V c).owesAt () t.succ = (dat0 V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation (c : Dev nD) : BodyObligation (dat0 (F := F) V c) (defs₀ (F := F)) Variants.none () Set.univ := fun t => by
  rw [bigSep_W0, bigSep_W0]
  exact sound_body V c t

end Cert.Kernel.Run

end
-- ==== Proof.KRun.lean ====
/-
  The whole program's run, for any float instance: the host lines before the call, the call (the pipeline over
  its sixteen grid points), the host lines after it. The thread holds every unscoped buffer at the contents
  the lines so far computed; entering the call, the features' and the labels' arrays are each dealt in halves
  to the two windows that read them and put together again at the exit, where only the call's result array has
  changed: it holds what the write-backs folded into it.
-/
import proofs.«143601_j50706383896918_2_alg».proof.Proof.KBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch, -/
abbrev W0 : Dev nD → Valuation τ sig (Elt F) := fun c b => (s₀ m ρ).mem ((c : Dev nD), b)
/-- after the lines before the call (the call's entry), -/
abbrev W1 : Dev nD → Valuation τ sig (Elt F) := fun c => StableHlo.after hostOps0 (W0 m ρ c)
/-- the same read at the TensorCore's references, -/
abbrev V1 : (c : Dev nD) → (b : Ref sig .tc) → Buf (Elt F) ((c : Thread nD τ).loc b) := fun c b => W1 m ρ c b
/-- The call's result array at its exit: the write-backs of all sixteen points folded into it. -/
def res (c : Dev nD) : (Proc.devRef (τ := τ) .tc main_v4).ty.Contents (Elt F) := (dat0 (V1 m ρ) c).arrAt 5 cfg0.N
/-- at the call's exit: the result array at `res`, every other buffer as entered, -/
def W2 (c : Dev nD) : Valuation τ sig (Elt F) := Function.update (W1 m ρ c) (Proc.devRef .tc main_v4) (res m ρ c)
abbrev V2 : (c : Dev nD) → (b : Ref sig .tc) → Buf (Elt F) ((c : Thread nD τ).loc b) := fun c b => W2 m ρ c b
/-- and after the lines after the call. -/
abbrev W3 : Dev nD → Valuation τ sig (Elt F) := fun c => StableHlo.after hostOps1 (W2 m ρ c)

theorem V2_res (c : Dev nD) : V2 m ρ c main_v4 = res m ρ c := by
  unfold V2 W2; exact Function.update_self _ _ _
theorem V2_of_ne (c : Dev nD) (b : Ref sig .tc) (hb : b ≠ main_v4) : V2 m ρ c b = V1 m ρ c b := by
  unfold V2 W2; exact Function.update_of_ne (fun e => hb (Proc.devRef_injective (τ := τ) _ e)) _ _

/-! ## The arrays behind the windows, one by one -/

/-- The four distinct buffers behind the six windows. -/
theorem arrBufs_open (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v0) ↦{fullShare} Vv main_v0) ∗ (((c : Thread nD τ).loc main_v1) ↦{fullShare} Vv main_v1)
          ∗ (((c : Thread nD τ).loc main_v3) ↦{fullShare} Vv main_v3) ∗ (((c : Thread nD τ).loc main_v4) ↦{fullShare} Vv main_v4)) := by
  unfold Pipeline.arrBufs
  exact bigSep_eq_bigSepL_of_eq [main_v0, main_v1, main_v3, main_v4] (by decide) (by decide) _

/-- The six windows' arrays at their shares: halves of the two arrays that two windows read, the row of counts and
    the result array whole. -/
theorem arrays_open (c : Dev nD) (G : (w : Fin cfg0.W) → Buf (Elt F) ((cfg0.win w).arr.view.loc (c : Thread nD τ))) :
    ((dat0 (V1 m ρ) c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare.left} G 2) ∗ (((c : Thread nD τ).loc main_v1) ↦{fullShare.right} G 3)
          ∗ (((c : Thread nD τ).loc main_v3) ↦{fullShare} G 4) ∗ (((c : Thread nD τ).loc main_v4) ↦{fullShare} G 5)) := by
  unfold Dat.arrays
  rw [bigSep_W0, (arr_whole0 0).set_eq_univ, (arr_whole0 2).set_eq_univ, (arr_whole0 4).set_eq_univ, (arr_whole0 5).set_eq_univ]
  rfl

/-! ## Entering and leaving the call: the shared arrays dealt in halves and put together again -/

/-- Outside the windows' arrays the exit contents are the entry contents. -/
theorem rest_eq (c : Dev nD) :
    (Pipeline.unscopedRest (Ix := Unit) (Name := ℕ) (U := UR sig nD τ) (Lvl := ℕ) spec0 c (V2 m ρ c) : sProp 𝕄)
      = Pipeline.unscopedRest spec0 c (V1 m ρ c) := by
  unfold Pipeline.unscopedRest
  refine bigSep_congr fun b hb => ?_
  rw [V2_of_ne m ρ c b fun e => (Finset.mem_sdiff.mp hb).2 (Finset.mem_image.mpr ⟨5, Finset.mem_univ _, e ▸ rfl⟩)]

/-- ENTRY: every unscoped buffer at the entry contents is the six windows' arrays at their shares and the rest. -/
theorem entry_split (c : Dev nD) :
    (StableHlo.held (c : Thread nD τ) (Pipeline.ucRefs τ sig) (W1 m ρ c) : sProp 𝕄)
      ⊢ iprop((dat0 (V1 m ρ) c).arrays ((dat0 (V1 m ρ) c).arrAt · 0) ∗ Pipeline.unscopedRest spec0 c (V1 m ρ c)) := by
  rw [← Pipeline.unscopedBufs_held c (W1 m ρ c), Pipeline.unscopedBufs_split₀ cfgs (0 : Fin 1) winFacts₀0.arr_unscoped c (V1 m ρ c),
    arrBufs_open, arrays_open]
  iintro ⟨⟨H0, H1, H3, H4⟩, Hrest⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  isplitr [Hrest]
  · isplitl [H0l]; · iexact H0l
    isplitl [H0r]; · iexact H0r
    isplitl [H1l]; · iexact H1l
    isplitl [H1r]; · iexact H1r
    isplitl [H3]; · iexact H3
    iexact H4
  iexact Hrest

/-- EXIT: the inputs' arrays were never written, so the halves hold the entry contents and join; with the result
    array at what the write-backs left and the rest, that is every unscoped buffer at the exit contents. -/
theorem exit_join (c : Dev nD) :
    (iprop((dat0 (V1 m ρ) c).arrays ((dat0 (V1 m ρ) c).arrAt · cfg0.N) ∗ Pipeline.unscopedRest spec0 c (V1 m ρ c)) : sProp 𝕄)
      ⊢ StableHlo.held (c : Thread nD τ) (Pipeline.ucRefs τ sig) (W2 m ρ c) := by
  rw [← Pipeline.unscopedBufs_held c (W2 m ρ c), Pipeline.unscopedBufs_split₀ cfgs (0 : Fin 1) winFacts₀0.arr_unscoped c (V2 m ρ c),
    arrBufs_open, arrays_open, rest_eq]
  beta_reduce
  rw [(dat0 (V1 m ρ) c).arrAt_in 0 rfl, (dat0 (V1 m ρ) c).arrAt_in 1 rfl, (dat0 (V1 m ρ) c).arrAt_in 2 rfl,
    (dat0 (V1 m ρ) c).arrAt_in 3 rfl, (dat0 (V1 m ρ) c).arrAt_in 4 rfl,
    V2_of_ne m ρ c main_v0 (by decide), V2_of_ne m ρ c main_v1 (by decide), V2_of_ne m ρ c main_v3 (by decide), V2_res]
  iintro ⟨⟨H0l, H0r, H1l, H1r, H3, H4⟩, Hrest⟩
  ihave H0 := (pointsTo_share (PosShare.mem_left_op_right fullShare)).2 $$ [H0l H0r]
  · isplitl [H0l]; · iexact H0l
    iexact H0r
  ihave H1 := (pointsTo_share (PosShare.mem_left_op_right fullShare)).2 $$ [H1l H1r]
  · isplitl [H1l]; · iexact H1l
    iexact H1r
  isplitr [Hrest]
  · isplitl [H0]; · iexact H0
    isplitl [H1]; · iexact H1
    isplitl [H3]; · iexact H3
    iexact H4
  iexact Hrest

/-! ## The proof data family, the thread state, the segments -/

/-- No pipeline has a prefetched table. -/
abbrev adm : (p : Fin 1) → (pcfgs (F := F) p).Adm := fun p => (cfgs p).toPCfg_adm
/-- The one pipeline's proof data at the call's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A stretch of host lines as a segment, over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The call as a segment: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- The program's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final memory holds, at every unscoped buffer, the contents the three segments computed. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## Reading the last contents -/

/-- No host line writes an argument array, and the call writes only its result array: the arguments end as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W1 m ρ c (Proc.devRef .tc main_arg0) := V2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W1 m ρ c (Proc.devRef .tc main_arg1) := V2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg1) := rfl

/-- THE FRAME: the program runs to the end, nothing faulting, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W3_main_arg0 m ρ c),
      (h c _ (mem_uc main_arg1 (by decide))).trans (W3_main_arg1 m ρ c)⟩) (run m ρ)

end Cert.Kernel.Run

end
-- ==== Proof.KIBody.lean ====
/-
  The kernel body's run at one grid point, for any float instance: from staging buffers holding the five
  input blocks it ends with the inputs in place and the output buffer holding the row losses of the block's
  256 rows (the one stored value, a pure function of the loaded blocks and the point's coordinate); and the
  data the pipeline rule is instantiated at. The two whole-array operands are each read through TWO
  windows (a row block and the whole array), so each window holds half of that array.
-/
import proofs.«143601_j50706383896918_2_alg».proof.Proof.Gen.KernelIdeal.Launch
import proofs.«143601_j50706383896918_2_alg».proof.Proof.Gen.KernelIdeal.Skeleton
import proofs.«143601_j50706383896918_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the core's buffers when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the store take a whole buffer -/

abbrev rA : Rect S256x128 := Rect.unit (s := S256x128) ![0, 0] S256x128.size Gen.inb_S256x128_S256x128_0_0
abbrev rB : Rect S4096x128 := Rect.unit (s := S4096x128) ![0, 0] S4096x128.size Gen.inb_S4096x128_S4096x128_0_0
abbrev rC : Rect S256x50 := Rect.unit (s := S256x50) ![0, 0] S256x50.size Gen.inb_S256x50_S256x50_0_0
abbrev rD : Rect S4096x50 := Rect.unit (s := S4096x50) ![0, 0] S4096x50.size Gen.inb_S4096x50_S4096x50_0_0
abbrev rE : Rect S1x4096 := Rect.unit (s := S1x4096) ![0, 0] S1x4096.size Gen.inb_S1x4096_S1x4096_0_0
abbrev rO : Rect S256 := Rect.unit (s := S256) ![0] S256.size Gen.inb_S256_S256_0

/-- What the body stores: the row losses of the block, from the loaded blocks and the point's coordinate. -/
def stored (i : grid0.Coords) (x0 : Vec F S256x128 .bf16) (x1 : Vec F S4096x128 .bf16) (x2 : Vec F S256x50 .bf16) (x3 : Vec F S4096x50 .bf16) (x4 : Vec F S1x4096 .f32) : Vec F S256 .f32 :=
  k0_pay1 (k0_pay2 (View.ld x0 rA) (View.ld x1 rB)) (k0_pay4 i (View.ld x2 rC) (View.ld x3 rD) (View.ld x4 rE)) (k0_pay5 i (View.ld x0 rA) (View.ld x1 rB))

/-- The output buffer after the body: its one store. -/
def out5 (i : grid0.Coords) (x0 : Vec F S256x128 .bf16) (x1 : Vec F S4096x128 .bf16) (x2 : Vec F S256x50 .bf16) (x3 : Vec F S4096x50 .bf16) (x4 : Vec F S1x4096 .f32) : Vec F S256 .f32 :=
  View.canon [⟨rO, stored i x0 x1 x2 x3 x4⟩]

/-- The store covers the buffer. -/
theorem cover5 (p0 : Vec F S256 .f32) (y : S256.Idx) :
    ∃ pc ∈ ([⟨rO, p0⟩] : List (View.Piece (Elt F) S256 .f32)), y ∈ pc.1.set :=
  View.cover_of_tiled [⟨rO, p0⟩] S256.size (by rfl) y

/-! ## The body's triple -/

set_option maxHeartbeats 1000000 in
/-- The body on whole staging buffers, the inputs' at `x0 … x4` and the output's at anything, runs to the
    continuation with the inputs' as they were and the output's at `out5`. -/
theorem sound_kernel (c : Dev nD) (E : Set ℕ) (i : grid0.Coords)
    (arg1 : Memref sig .tc .vmem S256x128 .bf16) (harg1 : arg1.IsWhole) (arg2 : Memref sig .tc .vmem S4096x128 .bf16) (harg2 : arg2.IsWhole)
    (arg3 : Memref sig .tc .vmem S256x50 .bf16) (harg3 : arg3.IsWhole) (arg4 : Memref sig .tc .vmem S4096x50 .bf16) (harg4 : arg4.IsWhole)
    (arg5 : Memref sig .tc .vmem S1x4096 .f32) (harg5 : arg5.IsWhole) (arg6 : Memref sig .tc .vmem S256 .f32) (harg6 : arg6.IsWhole)
    (x0 : Vec F S256x128 .bf16) (x1 : Vec F S4096x128 .bf16) (x2 : Vec F S256x50 .bf16) (x3 : Vec F S4096x50 .bf16) (x4 : Vec F S1x4096 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 i x0 x1 x2 x3 x4)) -∗ K ⟨⟩))
      ⊢ wp frame (wpE (defs₀ (F := F)) Variants.none c none) E (cc0__hmlc_kernel i arg1 harg1 arg2 harg2 arg3 harg3 arg4 harg4 arg5 harg5 arg6 harg6) K := by
  simp only [cc0__hmlc_kernel_eq_skeleton]; unfold cc0__hmlc_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the one pipeline on core `c`: the arrays as the region finds them; after the body at point
    `t` each input's buffer at its block and the output's at `out5` of the input blocks at the point's coordinate;
    the scoped rest and the generator register pass through untouched; nothing owed. The features' array is read by
    windows 0 and 1 and the labels' by windows 2 and 3: each pair deals the array's share in halves. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (grid0.coords t) (iblk V c 0 t) (iblk V c 1 t) (iblk V c 2 t) (iblk V c 3 t) (iblk V c 4 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t
    = out5 (grid0.coords t) (iblk V c 0 t) (iblk V c 1 t) (iblk V c 2 t) (iblk V c 3 t) (iblk V c 4 t) := by dsimp only [dat0]

theorem before_0 (c : Dev nD) (t : Fin cfg0.N) (d) : (dat0 V c).before 0 t d = iblk V c 0 t :=
  before0_of V (dat0 V c) (A_eq V c 0) (after_0 V c) t d
theorem before_1 (c : Dev nD) (t : Fin cfg0.N) (d) : (dat0 V c).before 1 t d = iblk V c 1 t :=
  before1_of V (dat0 V c) (A_eq V c 1) (after_1 V c) t d
theorem before_2 (c : Dev nD) (t : Fin cfg0.N) (d) : (dat0 V c).before 2 t d = iblk V c 2 t :=
  before2_of V (dat0 V c) (A_eq V c 2) (after_2 V c) t d
theorem before_3 (c : Dev nD) (t : Fin cfg0.N) (d) : (dat0 V c).before 3 t d = iblk V c 3 t :=
  before3_of V (dat0 V c) (A_eq V c 3) (after_3 V c) t d
theorem before_4 (c : Dev nD) (t : Fin cfg0.N) (d) : (dat0 V c).before 4 t d = iblk V c 4 t :=
  before4_of V (dat0 V c) (A_eq V c 4) (after_4 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel` applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).Φ t.succ = (dat0 V c).Φ t.castSucc from rfl,
    show (dat0 V c).owesAt () t.succ = (dat0 V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Run

end
-- ==== Proof.KIRun.lean ====
/-
  The whole program's run, for any float instance: the host lines before the call, the call (the pipeline over
  its sixteen grid points), the host lines after it. The thread holds every unscoped buffer at the contents
  the lines so far computed; entering the call, the features' and the labels' arrays are each dealt in halves
  to the two windows that read them and put together again at the exit, where only the call's result array has
  changed: it holds what the write-backs folded into it.
-/
import proofs.«143601_j50706383896918_2_alg».proof.Proof.KIBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch, -/
abbrev W0 : Dev nD → Valuation τ sig (Elt F) := fun c b => (s₀ m ρ).mem ((c : Dev nD), b)
/-- after the lines before the call (the call's entry), -/
abbrev W1 : Dev nD → Valuation τ sig (Elt F) := fun c => StableHlo.after hostOps0 (W0 m ρ c)
/-- the same read at the TensorCore's references, -/
abbrev V1 : (c : Dev nD) → (b : Ref sig .tc) → Buf (Elt F) ((c : Thread nD τ).loc b) := fun c b => W1 m ρ c b
/-- The call's result array at its exit: the write-backs of all sixteen points folded into it. -/
def res (c : Dev nD) : (Proc.devRef (τ := τ) .tc main_v4).ty.Contents (Elt F) := (dat0 (V1 m ρ) c).arrAt 5 cfg0.N
/-- at the call's exit: the result array at `res`, every other buffer as entered, -/
def W2 (c : Dev nD) : Valuation τ sig (Elt F) := Function.update (W1 m ρ c) (Proc.devRef .tc main_v4) (res m ρ c)
abbrev V2 : (c : Dev nD) → (b : Ref sig .tc) → Buf (Elt F) ((c : Thread nD τ).loc b) := fun c b => W2 m ρ c b
/-- and after the lines after the call. -/
abbrev W3 : Dev nD → Valuation τ sig (Elt F) := fun c => StableHlo.after hostOps1 (W2 m ρ c)

theorem V2_res (c : Dev nD) : V2 m ρ c main_v4 = res m ρ c := by
  unfold V2 W2; exact Function.update_self _ _ _
theorem V2_of_ne (c : Dev nD) (b : Ref sig .tc) (hb : b ≠ main_v4) : V2 m ρ c b = V1 m ρ c b := by
  unfold V2 W2; exact Function.update_of_ne (fun e => hb (Proc.devRef_injective (τ := τ) _ e)) _ _

/-! ## The arrays behind the windows, one by one -/

/-- The four distinct buffers behind the six windows. -/
theorem arrBufs_open (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v0) ↦{fullShare} Vv main_v0) ∗ (((c : Thread nD τ).loc main_v1) ↦{fullShare} Vv main_v1)
          ∗ (((c : Thread nD τ).loc main_v3) ↦{fullShare} Vv main_v3) ∗ (((c : Thread nD τ).loc main_v4) ↦{fullShare} Vv main_v4)) := by
  unfold Pipeline.arrBufs
  exact bigSep_eq_bigSepL_of_eq [main_v0, main_v1, main_v3, main_v4] (by decide) (by decide) _

/-- The six windows' arrays at their shares: halves of the two arrays that two windows read, the row of counts and
    the result array whole. -/
theorem arrays_open (c : Dev nD) (G : (w : Fin cfg0.W) → Buf (Elt F) ((cfg0.win w).arr.view.loc (c : Thread nD τ))) :
    ((dat0 (V1 m ρ) c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare.left} G 2) ∗ (((c : Thread nD τ).loc main_v1) ↦{fullShare.right} G 3)
          ∗ (((c : Thread nD τ).loc main_v3) ↦{fullShare} G 4) ∗ (((c : Thread nD τ).loc main_v4) ↦{fullShare} G 5)) := by
  unfold Dat.arrays
  rw [bigSep_W0, (arr_whole0 0).set_eq_univ, (arr_whole0 2).set_eq_univ, (arr_whole0 4).set_eq_univ, (arr_whole0 5).set_eq_univ]
  rfl

/-! ## Entering and leaving the call: the shared arrays dealt in halves and put together again -/

/-- Outside the windows' arrays the exit contents are the entry contents. -/
theorem rest_eq (c : Dev nD) :
    (Pipeline.unscopedRest (Ix := Unit) (Name := ℕ) (U := UR sig nD τ) (Lvl := ℕ) spec0 c (V2 m ρ c) : sProp 𝕄)
      = Pipeline.unscopedRest spec0 c (V1 m ρ c) := by
  unfold Pipeline.unscopedRest
  refine bigSep_congr fun b hb => ?_
  rw [V2_of_ne m ρ c b fun e => (Finset.mem_sdiff.mp hb).2 (Finset.mem_image.mpr ⟨5, Finset.mem_univ _, e ▸ rfl⟩)]

/-- ENTRY: every unscoped buffer at the entry contents is the six windows' arrays at their shares and the rest. -/
theorem entry_split (c : Dev nD) :
    (StableHlo.held (c : Thread nD τ) (Pipeline.ucRefs τ sig) (W1 m ρ c) : sProp 𝕄)
      ⊢ iprop((dat0 (V1 m ρ) c).arrays ((dat0 (V1 m ρ) c).arrAt · 0) ∗ Pipeline.unscopedRest spec0 c (V1 m ρ c)) := by
  rw [← Pipeline.unscopedBufs_held c (W1 m ρ c), Pipeline.unscopedBufs_split₀ cfgs (0 : Fin 1) winFacts₀0.arr_unscoped c (V1 m ρ c),
    arrBufs_open, arrays_open]
  iintro ⟨⟨H0, H1, H3, H4⟩, Hrest⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  isplitr [Hrest]
  · isplitl [H0l]; · iexact H0l
    isplitl [H0r]; · iexact H0r
    isplitl [H1l]; · iexact H1l
    isplitl [H1r]; · iexact H1r
    isplitl [H3]; · iexact H3
    iexact H4
  iexact Hrest

/-- EXIT: the inputs' arrays were never written, so the halves hold the entry contents and join; with the result
    array at what the write-backs left and the rest, that is every unscoped buffer at the exit contents. -/
theorem exit_join (c : Dev nD) :
    (iprop((dat0 (V1 m ρ) c).arrays ((dat0 (V1 m ρ) c).arrAt · cfg0.N) ∗ Pipeline.unscopedRest spec0 c (V1 m ρ c)) : sProp 𝕄)
      ⊢ StableHlo.held (c : Thread nD τ) (Pipeline.ucRefs τ sig) (W2 m ρ c) := by
  rw [← Pipeline.unscopedBufs_held c (W2 m ρ c), Pipeline.unscopedBufs_split₀ cfgs (0 : Fin 1) winFacts₀0.arr_unscoped c (V2 m ρ c),
    arrBufs_open, arrays_open, rest_eq]
  beta_reduce
  rw [(dat0 (V1 m ρ) c).arrAt_in 0 rfl, (dat0 (V1 m ρ) c).arrAt_in 1 rfl, (dat0 (V1 m ρ) c).arrAt_in 2 rfl,
    (dat0 (V1 m ρ) c).arrAt_in 3 rfl, (dat0 (V1 m ρ) c).arrAt_in 4 rfl,
    V2_of_ne m ρ c main_v0 (by decide), V2_of_ne m ρ c main_v1 (by decide), V2_of_ne m ρ c main_v3 (by decide), V2_res]
  iintro ⟨⟨H0l, H0r, H1l, H1r, H3, H4⟩, Hrest⟩
  ihave H0 := (pointsTo_share (PosShare.mem_left_op_right fullShare)).2 $$ [H0l H0r]
  · isplitl [H0l]; · iexact H0l
    iexact H0r
  ihave H1 := (pointsTo_share (PosShare.mem_left_op_right fullShare)).2 $$ [H1l H1r]
  · isplitl [H1l]; · iexact H1l
    iexact H1r
  isplitr [Hrest]
  · isplitl [H0]; · iexact H0
    isplitl [H1]; · iexact H1
    isplitl [H3]; · iexact H3
    iexact H4
  iexact Hrest

/-! ## The proof data family, the thread state, the segments -/

/-- No pipeline has a prefetched table. -/
abbrev adm : (p : Fin 1) → (pcfgs (F := F) p).Adm := fun p => (cfgs p).toPCfg_adm
/-- The one pipeline's proof data at the call's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A stretch of host lines as a segment, over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The call as a segment: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- The program's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final memory holds, at every unscoped buffer, the contents the three segments computed. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## Reading the last contents -/

/-- No host line writes an argument array, and the call writes only its result array: the arguments end as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W1 m ρ c (Proc.devRef .tc main_arg0) := V2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W1 m ρ c (Proc.devRef .tc main_arg1) := V2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg1) := rfl

/-- THE FRAME: the program runs to the end, nothing faulting, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W3_main_arg0 m ρ c),
      (h c _ (mem_uc main_arg1 (by decide))).trans (W3_main_arg1 m ρ c)⟩) (run m ρ)

end Cert.KernelIdeal.Run

end
-- ==== Proof.Spec.lean ====
/-
  The loss both programs compute, as one function of the two argument arrays, entry by entry on the
  extended reals.

  For features `x : [4096, 128]` and multi-hot labels `l : [4096, 50]`:
    * the scaled Gram entry  s(r,c) = (Σ_k x(r,k)·x(c,k)) · (1/T)  with T the temperature's binary value,
    * its row maximum        m(r)   = max_c s(r,c)  (a fold of `max` from -inf),
    * the shifted logit      g(r,c) = s(r,c) - m(r),
    * the off-diagonal mask  d(r,c) = 0 on the diagonal, 1 off it,
    * the label overlap      w(r,c) = ((Σ_k l(r,k)·l(c,k)) / max(n(r), n(c))) · d(r,c),  n(r) = Σ_k l(r,k),
    * the log-partition      Z(r)   = log(Σ_c exp(g(r,c))·d(r,c) + ε),
    * the row loss           ρ(r)   = (Σ_c w(r,c)·(g(r,c) - Z(r))) / (Σ_c [w(r,c) > 0 ? 1 : w(r,c)] + ε),
    * the result             -(Σ_r ρ(r) / 4096) / 2.
  Quotients are the extended reals' total division, so the formula is a value for every input.
-/
import Idealize.ShloMosaic.PureOps.Ideal
import Idealize.ShloMosaic.PureOps.Ideal.Laws
import Idealize.ShloMosaic.Lib.ValueIdx

noncomputable section

open scoped BigOperators

namespace Cert.Loss

open Idealize.ShloMosaic Idealize.ShloMosaic.ValueIdx

/-- The features' and the labels' index sets. -/
abbrev SX : Shape := ⟨2, ![4096, 128]⟩
abbrev SY : Shape := ⟨2, ![4096, 50]⟩

/-- The reciprocal of the temperature's binary value 9395241 / 2^27. -/
def invT : EReal := ((134217728 / 9395241 : ℝ) : EReal)
/-- The guard ε added under the logarithm and to the denominator (the f32 word both programs carry). -/
def eps : EReal := Ideal.ofBits .f32 0x2B8CBCCC#32
/-- The row maximum's starting value, the f32 word of -inf. -/
def negInf : EReal := Ideal.ofBits .f32 0xFF800000#32

variable (x : SX.Idx → EReal) (l : SY.Idx → EReal)

/-- n(r): how many labels row r carries. -/
def count (r : Fin 4096) : EReal := ∑ k : Fin 50, l (ix2 r k)
/-- s(r,c): the Gram entry over the temperature. -/
def score (r c : Fin 4096) : EReal := (∑ k : Fin 128, x (ix2 r k) * x (ix2 c k)) * invT
/-- m(r): the row's largest score. -/
def rowMax (r : Fin 4096) : EReal := (Finset.univ : Finset (Fin 4096)).fold max negInf (fun c => score x r c)
/-- g(r,c). -/
def logit (r c : Fin 4096) : EReal := score x r c - rowMax x r
/-- d(r,c): zero on the diagonal, one off it. -/
def offDiag (r c : Fin 4096) : EReal := if r = c then 0 else 1
/-- w(r,c): the normalised label overlap, the diagonal removed. -/
def overlap (r c : Fin 4096) : EReal :=
  Ideal.div (∑ k : Fin 50, l (ix2 r k) * l (ix2 c k)) (max (count l r) (count l c)) * offDiag r c
/-- Σ_c exp(g(r,c))·d(r,c). -/
def partition (r : Fin 4096) : EReal := ∑ c : Fin 4096, Ideal.exp (logit x r c) * offDiag r c
/-- g(r,c) - Z(r). -/
def logProb (r c : Fin 4096) : EReal := logit x r c - Ideal.log (partition x r + eps)
/-- The positives' indicator: 1 where the overlap is positive, the overlap itself elsewhere. -/
def positive (r c : Fin 4096) : EReal := if 0 < overlap l r c then 1 else overlap l r c
/-- ρ(r). -/
def rowLoss (r : Fin 4096) : EReal :=
  Ideal.div (∑ c : Fin 4096, overlap l r c * logProb x r c) ((∑ c : Fin 4096, positive l r c) + eps)
/-- The result: minus the mean row loss, halved (4096 and 2 as the f32 words both programs divide by). -/
def total : EReal :=
  Ideal.div (-(Ideal.div (∑ r : Fin 4096, rowLoss x l r) (Ideal.ofBits .f32 0x45800000#32))) (Ideal.ofBits .f32 0x40000000#32)

/-- The f32 word of 1.0 is the real 1. -/
theorem ofBits_one_f32 : Ideal.ofBits .f32 0x3F800000#32 = 1 := by
  simp [Ideal.ofBits, Ideal.ieee]
  rw [← EReal.coe_mul, ← EReal.coe_one]
  congr 1
  norm_num

end Cert.Loss

end
-- ==== Proof.KIValue.lean ====
/-
  The kernel call's operands and result as entries of their arrays.

  Each input window's block at grid point t, read at an index, is an entry of the window's array: windows 0 and 2 take
  rows 256·t … 256·t + 255 of the features' and the labels' arrays, windows 1, 3 and 4 the whole of the features', the
  labels' and the label counts' arrays. The result window writes block t, rows 256·t … 256·t + 255, of the result
  array at every point, and the sixteen blocks tile its 4096 rows; so when the value stored at point t, row p is the
  loss of row 256·t + p, the result array ends holding the row losses.
-/
import proofs.«143601_j50706383896918_2_alg».proof.Proof.KIBody
import proofs.«143601_j50706383896918_2_alg».proof.Proof.Spec
import Idealize.ShloMosaic.Lib.Pipeline.Value
import Idealize.ShloMosaic.Lib.ValueIdx

noncomputable section

namespace Cert.KernelIdeal.Run

open Idealize.ShloMosaic Idealize.ShloMosaic.TcCoe Idealize.ShloMosaic.ValueIdx
open Idealize.SL.Sem
open Idealize.ShloMosaic.Pipeline (Dat)
open Cert.KernelIdeal Cert.KernelIdeal.Gen

/-- The printed index maps, decided over the sixteen grid points: windows 0, 2 and 5 move with the point along the rows,
    windows 1, 3 and 4 stay at the origin, and the point's one coordinate is the point's number. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = t.val
    ∧ (grid0.coords t (0 : Fin 1)).val = t.val :=
  (by decide +kernel : ∀ t : Fin grid0.N, _)

theorem coords_val (t : Fin cfg0.N) : (grid0.coords t (0 : Fin 1)).val = t.val := (idx_facts t).2.2.2.2.2.2.2.2.2.2.2

/-- Row 256·t + p of the 4096 rows. -/
def rowOf (t : Fin cfg0.N) (p : Fin 256) : Fin 4096 :=
  ⟨256 * t.val + p.val, by
    have h : t.val < grid0.N := t.isLt
    rw [N_0] at h
    have hp := p.isLt
    omega⟩

theorem rowOf_val (t : Fin cfg0.N) (p : Fin 256) : (rowOf t p).val = 256 * t.val + p.val := rfl

variable {F : FTy → Type} [FloatOps F] [Named F]
variable (V : (c : Dev nD) → (b : Ref sig .tc) → Buf (Elt F) ((c : Thread nD τ).loc b))

/-! ## The windows' blocks as entries of their arrays -/

/-- Window 0's block at point t is rows 256·t … 256·t + 255 of the features' array. -/
theorem iblk0_at (c : Dev nD) (t : Fin cfg0.N) (y : S256x128.Idx) (k : S4096x128.Idx)
    (hk0 : (k 0).val = 256 * t.val + (y 0).val) (hk1 : (k 1).val = (y 1).val) :
    (iblk V c 0 t : Vec F S256x128 .bf16) y = (V c main_v0 : S4096x128.Idx → Elt F .bf16) k := by
  obtain ⟨e0, e1, -⟩ := idx_facts t
  unfold iblk
  rw [View.read_apply]
  show V c main_v0 _ = V c main_v0 _
  congr 1
  funext a
  apply Fin.ext
  match a with
  | ⟨0, _⟩ => show win0_0.index t 0 * 256 + 1 * (y 0).val = (k 0).val; rw [e0, hk0]; omega
  | ⟨1, _⟩ => show win0_0.index t 1 * 128 + 1 * (y 1).val = (k 1).val; rw [e1, hk1]; omega

/-- Window 1's block at every point is the whole features' array. -/
theorem iblk1_at (c : Dev nD) (t : Fin cfg0.N) (y : S4096x128.Idx) :
    (iblk V c 1 t : Vec F S4096x128 .bf16) y = (V c main_v0 : S4096x128.Idx → Elt F .bf16) y := by
  obtain ⟨-, -, e0, e1, -⟩ := idx_facts t
  unfold iblk
  rw [View.read_apply]
  show V c main_v0 _ = V c main_v0 _
  congr 1
  funext a
  apply Fin.ext
  match a with
  | ⟨0, _⟩ => show win0_1.index t 0 * 4096 + 1 * (y 0).val = (y 0).val; rw [e0]; omega
  | ⟨1, _⟩ => show win0_1.index t 1 * 128 + 1 * (y 1).val = (y 1).val; rw [e1]; omega

/-- Window 2's block at point t is rows 256·t … 256·t + 255 of the labels' array. -/
theorem iblk2_at (c : Dev nD) (t : Fin cfg0.N) (y : S256x50.Idx) (k : S4096x50.Idx)
    (hk0 : (k 0).val = 256 * t.val + (y 0).val) (hk1 : (k 1).val = (y 1).val) :
    (iblk V c 2 t : Vec F S256x50 .bf16) y = (V c main_v1 : S4096x50.Idx → Elt F .bf16) k := by
  obtain ⟨-, -, -, -, e0, e1, -⟩ := idx_facts t
  unfold iblk
  rw [View.read_apply]
  show V c main_v1 _ = V c main_v1 _
  congr 1
  funext a
  apply Fin.ext
  match a with
  | ⟨0, _⟩ => show win0_2.index t 0 * 256 + 1 * (y 0).val = (k 0).val; rw [e0, hk0]; omega
  | ⟨1, _⟩ => show win0_2.index t 1 * 50 + 1 * (y 1).val = (k 1).val; rw [e1, hk1]; omega

/-- Window 3's block at every point is the whole labels' array. -/
theorem iblk3_at (c : Dev nD) (t : Fin cfg0.N) (y : S4096x50.Idx) :
    (iblk V c 3 t : Vec F S4096x50 .bf16) y = (V c main_v1 : S4096x50.Idx → Elt F .bf16) y := by
  obtain ⟨-, -, -, -, -, -, e0, e1, -⟩ := idx_facts t
  unfold iblk
  rw [View.read_apply]
  show V c main_v1 _ = V c main_v1 _
  congr 1
  funext a
  apply Fin.ext
  match a with
  | ⟨0, _⟩ => show win0_3.index t 0 * 4096 + 1 * (y 0).val = (y 0).val; rw [e0]; omega
  | ⟨1, _⟩ => show win0_3.index t 1 * 50 + 1 * (y 1).val = (y 1).val; rw [e1]; omega

/-- Window 4's block at every point is the whole row of label counts. -/
theorem iblk4_at (c : Dev nD) (t : Fin cfg0.N) (y : S1x4096.Idx) :
    (iblk V c 4 t : Vec F S1x4096 .f32) y = (V c main_v3 : S1x4096.Idx → Elt F .f32) y := by
  obtain ⟨-, -, -, -, -, -, -, -, e0, e1, -⟩ := idx_facts t
  unfold iblk
  rw [View.read_apply]
  show V c main_v3 _ = V c main_v3 _
  congr 1
  funext a
  apply Fin.ext
  match a with
  | ⟨0, _⟩ => show win0_4.index t 0 * 1 + 1 * (y 0).val = (y 0).val; rw [e0]; omega
  | ⟨1, _⟩ => show win0_4.index t 1 * 4096 + 1 * (y 1).val = (y 1).val; rw [e1]; omega

theorem iblk0_ix (c : Dev nD) (t : Fin cfg0.N) (p : Fin 256) (k : Fin 128) :
    (iblk V c 0 t : Vec F S256x128 .bf16) (ix2 p k) = (V c main_v0 : S4096x128.Idx → Elt F .bf16) (ix2 (rowOf t p) k) :=
  iblk0_at V c t _ _ rfl rfl

theorem iblk2_ix (c : Dev nD) (t : Fin cfg0.N) (p : Fin 256) (k : Fin 50) :
    (iblk V c 2 t : Vec F S256x50 .bf16) (ix2 p k) = (V c main_v1 : S4096x50.Idx → Elt F .bf16) (ix2 (rowOf t p) k) :=
  iblk2_at V c t _ _ rfl rfl

/-! ## The result array: block t is rows 256·t … 256·t + 255, and the sixteen blocks tile it -/

theorem zero_off1 : (![0] : Fin 1 → Nat) = fun _ => 0 := funext fun a => by fin_cases a; rfl

/-- An index of the result array is in point t's block iff it is in the block's range. -/
theorem mem_blk5 (t : Fin cfg0.N) (i : S4096.Idx) :
    i ∈ ((cfg0.win 5).blk t).view.set
      ↔ ∀ a : Fin 1, win0_5.index t a * S256.size a ≤ (i a).val ∧ (i a).val < win0_5.index t a * S256.size a + S256.size a := by
  show i ∈ ((View.whole main_v4).slice (win0_5.rect t)).set ↔ _
  rw [View.set_slice_whole, Rect.mem_set_unit]
  exact Iff.rfl

/-- Every row is in the block of the point numbered by its quotient by 256. -/
theorem cover5_rows (i : S4096.Idx) :
    ∃ t : Fin cfg0.N, (cfg0.win 5).flush t = true ∧ i ∈ ((cfg0.win 5).blk t).view.set := by
  have hi : (i 0).val < 4096 := (i 0).isLt
  let t : Fin cfg0.N := (⟨(i 0).val / 256, by rw [N_0]; omega⟩ : Fin grid0.N)
  have ht : t.val = (i 0).val / 256 := rfl
  have e5 : win0_5.index t (0 : Fin 1) = t.val := (idx_facts t).2.2.2.2.2.2.2.2.2.2.1
  refine ⟨t, flush0_5 t, ?_⟩
  rw [mem_blk5]
  intro a
  match a with
  | ⟨0, _⟩ =>
    show win0_5.index t (0 : Fin 1) * 256 ≤ (i 0).val ∧ (i 0).val < win0_5.index t (0 : Fin 1) * 256 + 256
    rw [e5, ht]
    omega

section AtIdeal

variable (W : (c : Dev nD) → (b : Ref sig .tc) → Buf (Elt Ideal) ((c : Thread nD τ).loc b))

/-- What point t writes back is block t of the row losses, when the stored value at every point and row is the row's loss. -/
theorem flushed5_eq (c : Dev nD) (x : Cert.Loss.SX.Idx → EReal) (l : Cert.Loss.SY.Idx → EReal)
    (hstored : ∀ (t : Fin cfg0.N) (p : Fin 256),
      stored (F := Ideal) (grid0.coords t) (iblk W c 0 t) (iblk W c 1 t) (iblk W c 2 t) (iblk W c 3 t) (iblk W c 4 t) (ix1 p)
        = Cert.Loss.rowLoss x l (rowOf t p))
    (t : Fin cfg0.N) :
    (dat0 (F := Ideal) W c).flushed 5 t
      = ((cfg0.win 5).blk t).view.read (Elt Ideal) (fun i : S4096.Idx => Cert.Loss.rowLoss x l (i 0)) := by
  show (cfg0.win 5).cut (grid0.coords t) ((dat0 (F := Ideal) W c).after 5 t) = _
  rw [after_5]
  unfold out5
  rw [View.canon_unit_zero zero_off1]
  have e5 : win0_5.index t (0 : Fin 1) = t.val := (idx_facts t).2.2.2.2.2.2.2.2.2.2.1
  funext j
  have hj : (cfg0.win 5).xinj (grid0.coords t) j = ix1 (⟨(j 0).val, (j 0).isLt⟩ : Fin 256) :=
    funext fun a => Fin.ext (by match a with | ⟨0, _⟩ => rfl)
  show stored (F := Ideal) (grid0.coords t) (iblk W c 0 t) (iblk W c 1 t) (iblk W c 2 t) (iblk W c 3 t) (iblk W c 4 t)
      ((cfg0.win 5).xinj (grid0.coords t) j)
    = Cert.Loss.rowLoss x l ((((cfg0.win 5).blk t).view.emb j) 0)
  rw [hj, hstored t _]
  congr 1
  apply Fin.ext
  show 256 * t.val + (j 0).val = win0_5.index t (0 : Fin 1) * 256 + 1 * (j 0).val
  rw [e5]
  omega

/-- The call's result array ends holding the row losses. -/
theorem result_rows (c : Dev nD) (x : Cert.Loss.SX.Idx → EReal) (l : Cert.Loss.SY.Idx → EReal)
    (hstored : ∀ (t : Fin cfg0.N) (p : Fin 256),
      stored (F := Ideal) (grid0.coords t) (iblk W c 0 t) (iblk W c 1 t) (iblk W c 2 t) (iblk W c 3 t) (iblk W c 4 t) (ix1 p)
        = Cert.Loss.rowLoss x l (rowOf t p)) :
    (dat0 (F := Ideal) W c).arrAt 5 cfg0.N = fun i : S4096.Idx => Cert.Loss.rowLoss x l (i 0) :=
  (dat0 (F := Ideal) W c).arrAt_eq_of_cover 5 (fun i : S4096.Idx => Cert.Loss.rowLoss x l (i 0))
    (fun t _ => flushed5_eq W c x l hstored t) cover5_rows

end AtIdeal

end Cert.KernelIdeal.Run

end
-- ==== Proof.PayLoss.lean ====
/-
  One row of the kernel's block is the row loss of Spec.lean.
-/
import proofs.«143601_j50706383896918_2_alg».proof.Proof.Spec
import proofs.«143601_j50706383896918_2_alg».proof.Proof.Gen.KernelIdeal.Skeleton
import Idealize.ShloMosaic.PureOps.Ideal.Laws
import Idealize.ShloMosaic.PureOps.IdealRules
import Idealize.ShloMosaic.Lib.ValueIdx
import Idealize.ShloMosaic.Lib.Pipeline.Value
import Idealize.ShloMosaic.Lib.ValueLayout

noncomputable section

open scoped BigOperators

namespace Cert.PayLoss

open Idealize.ShloMosaic Idealize.ShloMosaic.ValueIdx
open Cert.KernelIdeal

variable [Cert.KernelIdeal.Facts]

/-! ## The host's operations around the call -/

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The row of label counts the call is handed: entry c is the count of row c. -/
theorem counts_entry (l : FVec Ideal Cert.KernelIdeal.S4096x50 .f32) (c : Fin 4096) :
    broadcastInDim Cert.KernelIdeal.S1x4096 ![1] Cert.KernelIdeal.Facts₀.bcast_S4096_S1x4096_1
      (Host.reduceAdd (F := Ideal) l (constant (F := Ideal) Cert.KernelIdeal.S_ .f32 0x00000000#32)
        Cert.KernelIdeal.Facts₀.reducesTo_S4096x50_S4096_d1 Cert.KernelIdeal.Facts₀.h_S_) (ix2 (0 : Fin 1) c)
      = Cert.Loss.count l c := by
  refine (broadcastInDim_apply _ _ _ _ (ix1 c) ?_).trans ?_
  · intro a
    match a with
    | ⟨0, _⟩ => rfl
  · show Ideal.hostReduceAdd Cert.KernelIdeal.Facts₀.reducesTo_S4096x50_S4096_d1 l (Ideal.ofBits .f32 0x00000000#32) (ix1 c) = _
    rw [Ideal.hostReduceAdd_single _ (by decide : Cert.KernelIdeal.S4096x50.Reduces [1] Cert.KernelIdeal.S4096),
      Ideal.ofBits_zero_f32, zero_add]
    unfold Cert.Loss.count
    refine Finset.sum_congr rfl fun k _ => congrArg l (funext fun d => ?_)
    match d with
    | ⟨0, _⟩ => rfl
    | ⟨1, _⟩ => rfl

/-- The host's operations after the call: the sum of the row losses over 4096, negated, halved. -/
theorem tail_total (x : Cert.Loss.SX.Idx → EReal) (l : Cert.Loss.SY.Idx → EReal)
    (a : FVec Ideal Cert.KernelIdeal.S4096 .f32) (ha : ∀ r : Fin 4096, a (ix1 r) = Cert.Loss.rowLoss x l r) :
    Host.divf (F := Ideal) (Host.negf (Host.divf (Host.reduceAdd a (constant Cert.KernelIdeal.S_ .f32 0x00000000#32)
        Cert.KernelIdeal.Facts₀.reducesTo_S4096_S_d0 Cert.KernelIdeal.Facts₀.h_S_)
      (constant Cert.KernelIdeal.S_ .f32 0x45800000#32))) (constant Cert.KernelIdeal.S_ .f32 0x40000000#32)
      = fun _ => Cert.Loss.total x l := by
  funext j
  show Ideal.div (-(Ideal.div (Ideal.hostReduceAdd Cert.KernelIdeal.Facts₀.reducesTo_S4096_S_d0 a
      (Ideal.ofBits .f32 0x00000000#32) j) (Ideal.ofBits .f32 0x45800000#32))) (Ideal.ofBits .f32 0x40000000#32) = _
  rw [Ideal.hostReduceAdd_total _ (fun b => b.elim0), Ideal.ofBits_zero_f32, zero_add, sum_idx1]
  unfold Cert.Loss.total
  refine congrArg (fun t => Ideal.div (-(Ideal.div t (Ideal.ofBits .f32 0x45800000#32))) (Ideal.ofBits .f32 0x40000000#32)) ?_
  exact Finset.sum_congr rfl fun r _ => ha r

/-! ## The kernel's block, entry by entry -/

open Cert.KernelIdeal.Gen

/-- The array row under row p of block i. -/
def row (i : Cert.KernelIdeal.grid0.Coords) (p : Fin 256) : Fin 4096 :=
  ⟨256 * (i 0).val + p.val, by
    have h : (i 0).val < 16 := (i 0).isLt
    have := p.isLt
    omega⟩

theorem row_val (i : Cert.KernelIdeal.grid0.Coords) (p : Fin 256) : (row i p).val = 256 * (i 0).val + p.val := rfl

/-! ### The off-diagonal mask -/

/-- Block number g below 16, row p below 256, column c below 4096: the words 256·g + p and c are equal exactly when the
    numbers are. -/
theorem word_eq_iff (g : Nat) (hg : g < 16) (p : Fin 256) (c : Fin 4096) :
    BitVec.ofNat 32 g * 256#32 + BitVec.ofNat 32 (0 * 256 + p.val) = BitVec.ofNat 32 (0 * 4096 + c.val)
      ↔ 256 * g + p.val = c.val := by
  have hp := p.isLt
  have hc := c.isLt
  rw [← BitVec.toNat_inj]
  simp only [BitVec.toNat_add, BitVec.toNat_mul, BitVec.toNat_ofNat, Nat.reducePow]
  omega

/-- A select on the equality of two words is the `if` on it. -/
theorem select_cmpi_eq {α : Type} (a b : BitVec 32) (X Y : α) :
    Scalar.select (IntOp.cmpi .eq a b) X Y = if a = b then X else Y := by
  show (if BitVec.ofBool (a == b) = 1#1 then X else Y) = _
  by_cases h : a = b
  · subst h
    rw [if_pos rfl, beq_self_eq_true]
    exact if_pos rfl
  · rw [if_neg h, beq_eq_false_iff_ne.mpr h]
    exact if_neg (by decide)

/-- The block's row numbers as words. -/
def rowWords (i : Cert.KernelIdeal.grid0.Coords) : IVec S256x4096 32 :=
  broadcastTo S256x4096 (addi (broadcast S256x1 (Scalar.muli (BitVec.ofNat 32 (i 0).val) 256#32))
    (iota .tc S256x1 32 [0] Facts₀.iota_S256x1_d0_w32)) Facts₀.broadcasts_S256x1_S256x4096
/-- The column numbers as words. -/
def colWords : IVec S256x4096 32 :=
  broadcastTo S256x4096 (iota .tc S1x4096 32 [1] Facts₀.iota_S1x4096_d1_w32) Facts₀.broadcasts_S1x4096_S256x4096

theorem rowWords_entry (i : Cert.KernelIdeal.grid0.Coords) (p : Fin 256) (c : Fin 4096) :
    rowWords i (ix2 p c) = BitVec.ofNat 32 (i 0).val * 256#32 + BitVec.ofNat 32 (0 * 256 + p.val) :=
  (broadcastTo_apply _ _ (ix2 p c) (ix2 p (0 : Fin 1)) (fun a => match a with
    | ⟨0, _⟩ => rfl
    | ⟨1, _⟩ => rfl)).trans rfl

theorem colWords_entry (p : Fin 256) (c : Fin 4096) :
    colWords (ix2 p c) = BitVec.ofNat 32 (0 * 4096 + c.val) :=
  (broadcastTo_apply _ _ (ix2 p c) (ix2 (0 : Fin 1) c) (fun a => match a with
    | ⟨0, _⟩ => rfl
    | ⟨1, _⟩ => rfl)).trans rfl

theorem pay3_eq (i : Cert.KernelIdeal.grid0.Coords) :
    k0_pay3 (F := Ideal) i = select (cmpi .eq (rowWords i) colWords)
      (broadcast S256x4096 (Scalar.ofBits (F := Ideal) .f32 0x00000000#32))
      (broadcast S256x4096 (Scalar.ofBits (F := Ideal) .f32 0x3F800000#32)) := rfl

/-- The mask's entry: zero on the array's diagonal, one off it. -/
theorem pay3_entry (i : Cert.KernelIdeal.grid0.Coords) (p : Fin 256) (c : Fin 4096) :
    k0_pay3 (F := Ideal) i (ix2 p c) = Cert.Loss.offDiag (row i p) c := by
  rw [pay3_eq]
  show Scalar.select (IntOp.cmpi .eq (rowWords i (ix2 p c)) (colWords (ix2 p c)))
    (Ideal.ofBits .f32 0x00000000#32) (Ideal.ofBits .f32 0x3F800000#32) = _
  rw [rowWords_entry, colWords_entry, select_cmpi_eq, Ideal.ofBits_zero_f32, Cert.Loss.ofBits_one_f32]
  unfold Cert.Loss.offDiag
  have hiff := word_eq_iff (i 0).val (i 0).isLt p c
  by_cases h : row i p = c
  · rw [if_pos h, if_pos (hiff.mpr (by rw [← h]; rfl))]
  · rw [if_neg h, if_neg (fun hw => h (Fin.ext (hiff.mp hw)))]

/-! ### The two products -/

theorem dX_lhs0 (j : S256x4096.Idx) (q : dot_S256x128_S128x4096_S256x4096_1_0_0_1_n_n.contr.Idx) : (dot_S256x128_S128x4096_S256x4096_1_0_0_1_n_n.lhsIdx j q 0).val = (j 0).val := by
  unfold DotDims.lhsIdx
  rw [dif_neg (show ¬(0 : Fin S256x128.rank) ∈ dot_S256x128_S128x4096_S256x4096_1_0_0_1_n_n.lhsBatch by decide),
    dif_pos (show (0 : Fin S256x128.rank) ∈ dot_S256x128_S128x4096_S256x4096_1_0_0_1_n_n.lhsNonContracting by decide)]
  rfl
theorem dX_rhs1 (j : S256x4096.Idx) (q : dot_S256x128_S128x4096_S256x4096_1_0_0_1_n_n.contr.Idx) : (dot_S256x128_S128x4096_S256x4096_1_0_0_1_n_n.rhsIdx j q 1).val = (j 1).val := by
  unfold DotDims.rhsIdx
  rw [dif_neg (show ¬(1 : Fin S128x4096.rank) ∈ dot_S256x128_S128x4096_S256x4096_1_0_0_1_n_n.rhsBatch by decide),
    dif_pos (show (1 : Fin S128x4096.rank) ∈ dot_S256x128_S128x4096_S256x4096_1_0_0_1_n_n.rhsNonContracting by decide)]
  rfl
theorem dY_lhs0 (j : S256x4096.Idx) (q : dot_S256x50_S50x4096_S256x4096_1_0_0_1_n_n.contr.Idx) : (dot_S256x50_S50x4096_S256x4096_1_0_0_1_n_n.lhsIdx j q 0).val = (j 0).val := by
  unfold DotDims.lhsIdx
  rw [dif_neg (show ¬(0 : Fin S256x50.rank) ∈ dot_S256x50_S50x4096_S256x4096_1_0_0_1_n_n.lhsBatch by decide),
    dif_pos (show (0 : Fin S256x50.rank) ∈ dot_S256x50_S50x4096_S256x4096_1_0_0_1_n_n.lhsNonContracting by decide)]
  rfl
theorem dY_rhs1 (j : S256x4096.Idx) (q : dot_S256x50_S50x4096_S256x4096_1_0_0_1_n_n.contr.Idx) : (dot_S256x50_S50x4096_S256x4096_1_0_0_1_n_n.rhsIdx j q 1).val = (j 1).val := by
  unfold DotDims.rhsIdx
  rw [dif_neg (show ¬(1 : Fin S50x4096.rank) ∈ dot_S256x50_S50x4096_S256x4096_1_0_0_1_n_n.rhsBatch by decide),
    dif_pos (show (1 : Fin S50x4096.rank) ∈ dot_S256x50_S50x4096_S256x4096_1_0_0_1_n_n.rhsNonContracting by decide)]
  rfl

/-- The features' product into the zero block, at (p, c): the sum over the 128 feature coordinates. -/
theorem gramX_entry (A : FVec Ideal S256x128 .bf16) (B : FVec Ideal S128x4096 .bf16) (p : Fin 256) (c : Fin 4096) :
    matmul (F := Ideal) dot_S256x128_S128x4096_S256x4096_1_0_0_1_n_n none A B (constant S256x4096 .f32 0x00000000#32) (ix2 p c)
      = ∑ k : Fin 128, A (ix2 p k) * B (ix2 k c) := by
  simp only [matmul]
  rw [Ideal.matmul_constant_zero_apply, ← Equiv.sum_comp (contrEquiv1 dot_S256x128_S128x4096_S256x4096_1_0_0_1_n_n 128 rfl rfl).symm]
  refine Finset.sum_congr rfl fun k _ => ?_
  have hk := contrEquiv1_symm_val dot_S256x128_S128x4096_S256x4096_1_0_0_1_n_n 128 rfl rfl k
  have el : dot_S256x128_S128x4096_S256x4096_1_0_0_1_n_n.lhsIdx (ix2 p c) ((contrEquiv1 dot_S256x128_S128x4096_S256x4096_1_0_0_1_n_n 128 rfl rfl).symm k) = ix2 p k := funext fun a => Fin.ext (by
    match a with
    | ⟨0, _⟩ => exact dX_lhs0 _ _
    | ⟨1, _⟩ => exact (dot_S256x128_S128x4096_S256x4096_1_0_0_1_n_n.lhsIdx_val_of_single rfl _ _).trans hk)
  have er : dot_S256x128_S128x4096_S256x4096_1_0_0_1_n_n.rhsIdx (ix2 p c) ((contrEquiv1 dot_S256x128_S128x4096_S256x4096_1_0_0_1_n_n 128 rfl rfl).symm k) = ix2 k c := funext fun a => Fin.ext (by
    match a with
    | ⟨0, _⟩ => exact (dot_S256x128_S128x4096_S256x4096_1_0_0_1_n_n.rhsIdx_val_of_single rfl _ _).trans hk
    | ⟨1, _⟩ => exact dX_rhs1 _ _)
  rw [el, er]

/-- The labels' product into the zero block, at (p, c): the sum over the 50 label coordinates. -/
theorem gramY_entry (A : FVec Ideal S256x50 .bf16) (B : FVec Ideal S50x4096 .bf16) (p : Fin 256) (c : Fin 4096) :
    matmul (F := Ideal) dot_S256x50_S50x4096_S256x4096_1_0_0_1_n_n none A B (constant S256x4096 .f32 0x00000000#32) (ix2 p c)
      = ∑ k : Fin 50, A (ix2 p k) * B (ix2 k c) := by
  simp only [matmul]
  rw [Ideal.matmul_constant_zero_apply, ← Equiv.sum_comp (contrEquiv1 dot_S256x50_S50x4096_S256x4096_1_0_0_1_n_n 50 rfl rfl).symm]
  refine Finset.sum_congr rfl fun k _ => ?_
  have hk := contrEquiv1_symm_val dot_S256x50_S50x4096_S256x4096_1_0_0_1_n_n 50 rfl rfl k
  have el : dot_S256x50_S50x4096_S256x4096_1_0_0_1_n_n.lhsIdx (ix2 p c) ((contrEquiv1 dot_S256x50_S50x4096_S256x4096_1_0_0_1_n_n 50 rfl rfl).symm k) = ix2 p k := funext fun a => Fin.ext (by
    match a with
    | ⟨0, _⟩ => exact dY_lhs0 _ _
    | ⟨1, _⟩ => exact (dot_S256x50_S50x4096_S256x4096_1_0_0_1_n_n.lhsIdx_val_of_single rfl _ _).trans hk)
  have er : dot_S256x50_S50x4096_S256x4096_1_0_0_1_n_n.rhsIdx (ix2 p c) ((contrEquiv1 dot_S256x50_S50x4096_S256x4096_1_0_0_1_n_n 50 rfl rfl).symm k) = ix2 k c := funext fun a => Fin.ext (by
    match a with
    | ⟨0, _⟩ => exact (dot_S256x50_S50x4096_S256x4096_1_0_0_1_n_n.rhsIdx_val_of_single rfl _ _).trans hk
    | ⟨1, _⟩ => exact dY_rhs1 _ _)
  rw [el, er]

/-! ### The shifted logits -/

/-- The temperature's reciprocal, as the kernel names it. -/
theorem inv_t : Named.named (F := Ideal) Cert.KernelIdeal.κ "inv_t" (φ := .f32) 0x41649249#32 = Cert.Loss.invT :=
  IdealRules.named_const.ideal_named_scalar _ _ _ _ rfl

/-- A column [256, 1] copied along the 4096 lanes, at (p, c): the column's entry p. -/
theorem bcastCol_apply {α : Type} (w : S256x1.Idx → α) (p : Fin 256) (c : Fin 4096) :
    broadcastTo S256x4096 w Facts₀.broadcasts_S256x1_S256x4096 (ix2 p c) = w (ix2 p (0 : Fin 1)) :=
  broadcastTo_apply _ _ (ix2 p c) (ix2 p (0 : Fin 1)) (fun a => match a with
    | ⟨0, _⟩ => rfl
    | ⟨1, _⟩ => rfl)

/-- A vector [256] recast as a column [256, 1], at (p, 0): the vector's entry p. -/
theorem colCast_apply {α : Type} (v : S256.Idx → α) (p : Fin 256) :
    shapeCast S256x1 v Facts₀.shapeCasts_S256_S256x1 (ix2 p (0 : Fin 1)) = v (ix1 p) := by
  refine shapeCast_apply v _ _ (ix1 p) ?_
  rw [Shape.rowMajor_val_one, Shape.rowMajor_val_two]
  show p.val = p.val * 1 + 0
  omega

/-- A row [1, 4096] copied down the 256 rows, at (p, c): the row's entry c. -/
theorem bcastRow_apply {α : Type} (w : S1x4096.Idx → α) (p : Fin 256) (c : Fin 4096) :
    broadcastTo S256x4096 w Facts₀.broadcasts_S1x4096_S256x4096 (ix2 p c) = w (ix2 (0 : Fin 1) c) :=
  broadcastTo_apply _ _ (ix2 p c) (ix2 (0 : Fin 1) c) (fun a => match a with
    | ⟨0, _⟩ => rfl
    | ⟨1, _⟩ => rfl)

/-- The lane index over row p with lane c inserted is (p, c). -/
theorem lift_lane (p : Fin 256) (c : Fin 4096) :
    Facts₀.reduces_S256x4096_S256.lift (ix1 p) c = ix2 p c :=
  funext fun d => match d with
    | ⟨0, _⟩ => rfl
    | ⟨1, _⟩ => rfl

/-- The kernel's scaled Gram block. -/
def scaled (v1 : Vec Ideal S256x128 .bf16) (v3 : Vec Ideal S4096x128 .bf16) : FVec Ideal S256x4096 .f32 :=
  mulf (matmul dot_S256x128_S128x4096_S256x4096_1_0_0_1_n_n none (shapeCast S256x128 v1 Facts₀.shapeCasts_S256x128_S256x128 : FVec Ideal S256x128 .bf16)
      (transpose S128x4096 [1, 0] (shapeCast S4096x128 v3 Facts₀.shapeCasts_S4096x128_S4096x128 : FVec Ideal S4096x128 .bf16)
        Facts₀.transposes_S4096x128_p1_0_S128x4096 : FVec Ideal S128x4096 .bf16)
      (constant S256x4096 .f32 0x00000000#32))
    (broadcast S256x4096 (Named.named (F := Ideal) Cert.KernelIdeal.κ "inv_t" (φ := .f32) 0x41649249#32))

theorem pay2_eq (v1 : Vec Ideal S256x128 .bf16) (v3 : Vec Ideal S4096x128 .bf16) :
    k0_pay2 (F := Ideal) v1 v3 = subf (scaled v1 v3)
      (broadcastTo S256x4096 (shapeCast S256x1 (multiReduction (F := Ideal) .maximumf [1] S256 (scaled v1 v3) 0xFF800000#32
        Facts₀.reduces_S256x4096_S256 (.inl rfl) rfl) Facts₀.shapeCasts_S256_S256x1) Facts₀.broadcasts_S256x1_S256x4096) := rfl

section Features
variable (i : Cert.KernelIdeal.grid0.Coords) (v1 : Vec Ideal S256x128 .bf16) (v3 : Vec Ideal S4096x128 .bf16)
  (x : Cert.Loss.SX.Idx → EReal)
  (h1 : ∀ (p : Fin 256) (k : Fin 128), v1 (ix2 p k) = x (ix2 (row i p) k))
  (h3 : ∀ (c : Fin 4096) (k : Fin 128), v3 (ix2 c k) = x (ix2 c k))
include h1 h3

/-- The scaled Gram block's entry is the score. -/
theorem scaled_entry (p : Fin 256) (c : Fin 4096) : scaled v1 v3 (ix2 p c) = Cert.Loss.score x (row i p) c := by
  unfold scaled
  rw [mulf_apply, gramX_entry, broadcast_apply, inv_t]
  unfold Cert.Loss.score
  refine congrArg (· * Cert.Loss.invT) (Finset.sum_congr rfl fun k _ => ?_)
  rw [shapeCast_apply v1 _ (ix2 p k) (ix2 p k) rfl,
    transpose_apply [1, 0] _ _ (ix2 k c) (ix2 c k) (fun b => match b with
      | ⟨0, _⟩ => rfl
      | ⟨1, _⟩ => rfl),
    shapeCast_apply v3 _ (ix2 c k) (ix2 c k) rfl, h1, h3]

/-- The block's lane maximum at row p is the row maximum. -/
theorem rowMax_entry (p : Fin 256) :
    multiReduction (F := Ideal) .maximumf [1] S256 (scaled v1 v3) 0xFF800000#32 Facts₀.reduces_S256x4096_S256 (.inl rfl) rfl
      (ix1 p) = Cert.Loss.rowMax x (row i p) := by
  refine (Ideal.multiReduction_maximumf_single _ _ _ _ _ _).trans ?_
  unfold Cert.Loss.rowMax Cert.Loss.negInf
  show (Finset.univ : Finset (Fin 4096)).fold max (Ideal.ofBits .f32 0xFF800000#32)
    (fun c => scaled v1 v3 (Facts₀.reduces_S256x4096_S256.lift (ix1 p) c)) = _
  refine congrArg (fun f => (Finset.univ : Finset (Fin 4096)).fold max (Ideal.ofBits .f32 0xFF800000#32) f)
    (funext fun (c : Fin 4096) => ?_)
  exact (congrArg (scaled v1 v3) (lift_lane p c)).trans (scaled_entry i v1 v3 x h1 h3 p c)

/-- The shifted block's entry is the logit. -/
theorem pay2_entry (p : Fin 256) (c : Fin 4096) :
    k0_pay2 (F := Ideal) v1 v3 (ix2 p c) = Cert.Loss.logit x (row i p) c := by
  rw [pay2_eq, subf_apply, scaled_entry i v1 v3 x h1 h3, bcastCol_apply, colCast_apply, rowMax_entry i v1 v3 x h1 h3]
  rfl

end Features

/-! ### The label overlap -/

/-- The label index over row p with coordinate k inserted is (p, k). -/
theorem lift_label (p : Fin 256) (k : Fin 50) :
    Facts₀.reduces_S256x50_S256.lift (ix1 p) k = ix2 p k :=
  funext fun d => match d with
    | ⟨0, _⟩ => rfl
    | ⟨1, _⟩ => rfl

/-- The kernel's overlap block before the mask: the labels' product over the larger of the two counts. -/
def ratio (v5 : Vec Ideal S256x50 .bf16) (v7 : Vec Ideal S4096x50 .bf16) (v9 : Vec Ideal S1x4096 .f32) :
    FVec Ideal S256x4096 .f32 :=
  divf (matmul dot_S256x50_S50x4096_S256x4096_1_0_0_1_n_n none (shapeCast S256x50 v5 Facts₀.shapeCasts_S256x50_S256x50 : FVec Ideal S256x50 .bf16)
      (transpose S50x4096 [1, 0] (shapeCast S4096x50 v7 Facts₀.shapeCasts_S4096x50_S4096x50 : FVec Ideal S4096x50 .bf16)
        Facts₀.transposes_S4096x50_p1_0_S50x4096 : FVec Ideal S50x4096 .bf16)
      (constant S256x4096 .f32 0x00000000#32))
    (maximumf
      (broadcastTo S256x4096 (shapeCast S256x1 (multiReduction (F := Ideal) .add [1] S256
        (extf .f32 (shapeCast S256x50 v5 Facts₀.shapeCasts_S256x50_S256x50 : FVec Ideal S256x50 .bf16) Facts₀.bitsLt_bf16_f32)
        0x00000000#32 Facts₀.reduces_S256x50_S256 (.inl rfl) rfl) Facts₀.shapeCasts_S256_S256x1)
        Facts₀.broadcasts_S256x1_S256x4096)
      (broadcastTo S256x4096 (shapeCast S1x4096 v9 Facts₀.shapeCasts_S1x4096_S1x4096 : FVec Ideal S1x4096 .f32)
        Facts₀.broadcasts_S1x4096_S256x4096))

theorem pay4_eq (i : Cert.KernelIdeal.grid0.Coords) (v5 : Vec Ideal S256x50 .bf16) (v7 : Vec Ideal S4096x50 .bf16)
    (v9 : Vec Ideal S1x4096 .f32) :
    k0_pay4 (F := Ideal) i v5 v7 v9 = mulf (ratio v5 v7 v9) (k0_pay3 (F := Ideal) i) := rfl

section Labels
variable (i : Cert.KernelIdeal.grid0.Coords) (v5 : Vec Ideal S256x50 .bf16) (v7 : Vec Ideal S4096x50 .bf16)
  (v9 : Vec Ideal S1x4096 .f32) (l : Cert.Loss.SY.Idx → EReal)
  (h5 : ∀ (p : Fin 256) (k : Fin 50), v5 (ix2 p k) = l (ix2 (row i p) k))
  (h7 : ∀ (c : Fin 4096) (k : Fin 50), v7 (ix2 c k) = l (ix2 c k))
  (h9 : ∀ c : Fin 4096, v9 (ix2 (0 : Fin 1) c) = Cert.Loss.count l c)

include h5 in
/-- The count the kernel takes of its own block's row p is the count of the array's row. -/
theorem blockCount_entry (p : Fin 256) :
    multiReduction (F := Ideal) .add [1] S256
      (extf .f32 (shapeCast S256x50 v5 Facts₀.shapeCasts_S256x50_S256x50 : FVec Ideal S256x50 .bf16) Facts₀.bitsLt_bf16_f32)
      0x00000000#32 Facts₀.reduces_S256x50_S256 (.inl rfl) rfl (ix1 p) = Cert.Loss.count l (row i p) := by
  refine (Ideal.multiReduction_add_single _ _ _ _ _ _).trans ?_
  unfold Cert.Loss.count
  refine Finset.sum_congr rfl fun (k : Fin 50) _ => ?_
  refine (congrArg _ (lift_label p k)).trans ?_
  rw [extf_apply, shapeCast_apply v5 _ (ix2 p k) (ix2 p k) rfl, h5]

include h5 h7 h9 in
/-- The masked overlap block's entry is the overlap. -/
theorem pay4_entry (p : Fin 256) (c : Fin 4096) :
    k0_pay4 (F := Ideal) i v5 v7 v9 (ix2 p c) = Cert.Loss.overlap l (row i p) c := by
  rw [pay4_eq, mulf_apply, pay3_entry]
  unfold ratio
  rw [divf_apply, gramY_entry, maximumf_apply, bcastCol_apply, colCast_apply, blockCount_entry i v5 l h5, bcastRow_apply,
    shapeCast_apply v9 _ (ix2 (0 : Fin 1) c) (ix2 (0 : Fin 1) c) rfl, h9]
  unfold Cert.Loss.overlap
  refine congrArg (fun t => Ideal.div t (max (Cert.Loss.count l (row i p)) (Cert.Loss.count l c))
    * Cert.Loss.offDiag (row i p) c) (Finset.sum_congr rfl fun k _ => ?_)
  rw [shapeCast_apply v5 _ (ix2 p k) (ix2 p k) rfl,
    transpose_apply [1, 0] _ _ (ix2 k c) (ix2 c k) (fun b => match b with
      | ⟨0, _⟩ => rfl
      | ⟨1, _⟩ => rfl),
    shapeCast_apply v7 _ (ix2 c k) (ix2 c k) rfl, h5, h7]

end Labels

/-! ### The exponentials, and the row's assembly -/

theorem pay5_eq (i : Cert.KernelIdeal.grid0.Coords) (v1 : Vec Ideal S256x128 .bf16) (v3 : Vec Ideal S4096x128 .bf16) :
    k0_pay5 (F := Ideal) i v1 v3 = mulf (exp (k0_pay2 (F := Ideal) v1 v3)) (k0_pay3 (F := Ideal) i) := rfl

/-- The masked exponentials' entry. -/
theorem pay5_entry (i : Cert.KernelIdeal.grid0.Coords) (v1 : Vec Ideal S256x128 .bf16) (v3 : Vec Ideal S4096x128 .bf16)
    (x : Cert.Loss.SX.Idx → EReal)
    (h1 : ∀ (p : Fin 256) (k : Fin 128), v1 (ix2 p k) = x (ix2 (row i p) k))
    (h3 : ∀ (c : Fin 4096) (k : Fin 128), v3 (ix2 c k) = x (ix2 c k)) (p : Fin 256) (c : Fin 4096) :
    k0_pay5 (F := Ideal) i v1 v3 (ix2 p c) = Ideal.exp (Cert.Loss.logit x (row i p) c) * Cert.Loss.offDiag (row i p) c := by
  rw [pay5_eq, mulf_apply, pay3_entry]
  show Ideal.exp (k0_pay2 (F := Ideal) v1 v3 (ix2 p c)) * _ = _
  rw [pay2_entry i v1 v3 x h1 h3]

/-- A select on "a exceeds b" is the `if` on it. -/
theorem select_cmp_ogt {α : Type} (a b : EReal) (X Y : α) :
    Scalar.select (Ideal.cmp .ogt a b) X Y = if b < a then X else Y := by
  show (if BitVec.ofBool (decide (b < a)) = 1#1 then X else Y) = _
  by_cases h : b < a
  · rw [if_pos h, decide_eq_true h]
    exact if_pos rfl
  · rw [if_neg h, decide_eq_false h]
    exact if_neg (by decide)

/-- A block's lane sum at row p is the sum over the 4096 columns of the row's entries. -/
theorem laneSum_entry (v : FVec Ideal S256x4096 .f32) (p : Fin 256) (f : Fin 4096 → EReal)
    (hv : ∀ c, v (ix2 p c) = f c) :
    multiReduction (F := Ideal) .add [1] S256 v 0x00000000#32 Facts₀.reduces_S256x4096_S256 (.inl rfl) rfl (ix1 p)
      = ∑ c, f c := by
  refine (Ideal.multiReduction_add_single _ _ _ _ _ _).trans ?_
  refine Finset.sum_congr rfl fun (c : Fin 4096) _ => ?_
  exact (congrArg v (lift_lane p c)).trans (hv c)

theorem pay1_eq (v18 v38 v40 : FVec Ideal S256x4096 .f32) :
    k0_pay1 (F := Ideal) v18 v38 v40 =
      divf
        (multiReduction (F := Ideal) .add [1] S256
          (mulf v38 (subf v18 (broadcastTo S256x4096
            (log (addf
              (shapeCast S256x1 (multiReduction (F := Ideal) .add [1] S256 v40 0x00000000#32
                Facts₀.reduces_S256x4096_S256 (.inl rfl) rfl) Facts₀.shapeCasts_S256_S256x1)
              (broadcast S256x1 (Scalar.ofBits (F := Ideal) .f32 0x2B8CBCCC#32))))
            Facts₀.broadcasts_S256x1_S256x4096)))
          0x00000000#32 Facts₀.reduces_S256x4096_S256 (.inl rfl) rfl)
        (addf
          (multiReduction (F := Ideal) .add [1] S256
            (select (cmpf .ogt v38 (broadcast S256x4096 (Scalar.ofBits (F := Ideal) .f32 0x00000000#32)))
              (broadcast S256x4096 (Scalar.ofBits (F := Ideal) .f32 0x3F800000#32)) v38)
            0x00000000#32 Facts₀.reduces_S256x4096_S256 (.inl rfl) rfl)
          (broadcast S256 (Scalar.ofBits (F := Ideal) .f32 0x2B8CBCCC#32))) := rfl

/-- The stored vector's entry p, from row p of the three blocks it reads (logits g, weights w, masked exponentials e). -/
theorem pay1_entry (v18 v38 v40 : FVec Ideal S256x4096 .f32) (p : Fin 256) (g w e : Fin 4096 → EReal)
    (h18 : ∀ c, v18 (ix2 p c) = g c) (h38 : ∀ c, v38 (ix2 p c) = w c) (h40 : ∀ c, v40 (ix2 p c) = e c) :
    k0_pay1 (F := Ideal) v18 v38 v40 (ix1 p)
      = Ideal.div (∑ c, w c * (g c - Ideal.log ((∑ c, e c) + Cert.Loss.eps)))
          ((∑ c, if 0 < w c then 1 else w c) + Cert.Loss.eps) := by
  rw [pay1_eq, divf_apply, addf_apply, broadcast_apply]
  refine congrArg₂ Ideal.div (laneSum_entry _ p _ fun c => ?_)
    (congrArg₂ (· + ·) (laneSum_entry _ p _ fun c => ?_) rfl)
  · rw [mulf_apply, subf_apply, bcastCol_apply, h38, h18]
    show w c * (g c - Ideal.log (shapeCast S256x1 (multiReduction (F := Ideal) .add [1] S256 v40 0x00000000#32
      Facts₀.reduces_S256x4096_S256 (.inl rfl) rfl) Facts₀.shapeCasts_S256_S256x1 (ix2 p (0 : Fin 1))
        + Ideal.ofBits .f32 0x2B8CBCCC#32)) = _
    rw [colCast_apply, laneSum_entry v40 p e h40]
    rfl
  · show Scalar.select (Ideal.cmp .ogt (v38 (ix2 p c)) (Ideal.ofBits .f32 0x00000000#32))
      (Ideal.ofBits .f32 0x3F800000#32) (v38 (ix2 p c)) = _
    rw [h38, Ideal.ofBits_zero_f32, Cert.Loss.ofBits_one_f32, select_cmp_ogt]

/-- ONE ROW OF THE BLOCK: at grid point i, entry p of the vector the body stores is the row loss of row 256·i + p. -/
theorem payload_row (i : Cert.KernelIdeal.grid0.Coords)
    (v1 : Vec Ideal Cert.KernelIdeal.S256x128 .bf16) (v3 : Vec Ideal Cert.KernelIdeal.S4096x128 .bf16)
    (v5 : Vec Ideal Cert.KernelIdeal.S256x50 .bf16) (v7 : Vec Ideal Cert.KernelIdeal.S4096x50 .bf16)
    (v9 : Vec Ideal Cert.KernelIdeal.S1x4096 .f32)
    (x : Cert.Loss.SX.Idx → EReal) (l : Cert.Loss.SY.Idx → EReal)
    (h1 : ∀ (p : Fin 256) (k : Fin 128), v1 (ix2 p k) = x (ix2 (row i p) k))
    (h3 : ∀ (c : Fin 4096) (k : Fin 128), v3 (ix2 c k) = x (ix2 c k))
    (h5 : ∀ (p : Fin 256) (k : Fin 50), v5 (ix2 p k) = l (ix2 (row i p) k))
    (h7 : ∀ (c : Fin 4096) (k : Fin 50), v7 (ix2 c k) = l (ix2 c k))
    (h9 : ∀ c : Fin 4096, v9 (ix2 (0 : Fin 1) c) = Cert.Loss.count l c)
    (p : Fin 256) :
    Cert.KernelIdeal.Gen.k0_pay1 (F := Ideal) (Cert.KernelIdeal.Gen.k0_pay2 v1 v3)
      (Cert.KernelIdeal.Gen.k0_pay4 i v5 v7 v9) (Cert.KernelIdeal.Gen.k0_pay5 i v1 v3) (ix1 p)
      = Cert.Loss.rowLoss x l (row i p) := by
  rw [pay1_entry _ _ _ p (fun c => Cert.Loss.logit x (row i p) c) (fun c => Cert.Loss.overlap l (row i p) c)
    (fun c => Ideal.exp (Cert.Loss.logit x (row i p) c) * Cert.Loss.offDiag (row i p) c)
    (pay2_entry i v1 v3 x h1 h3 p) (pay4_entry i v5 v7 v9 l h5 h7 h9 p) (pay5_entry i v1 v3 x h1 h3 p)]
  rfl

end Cert.PayLoss

end
-- ==== Proof.Bridge.lean ====
/-
  The idealized kernel's run ends with the specification's loss in its result.

  At the ideal instance the lines before the call hand the call the features and the labels unchanged (a change
  of float format is the identity) and the row of label counts; every row of every block the call writes back is
  the row loss of that row (the stored value read at an entry), the blocks tile the result array, and the lines
  after the call fold the array into minus its mean, halved.
-/
import proofs.«143601_j50706383896918_2_alg».proof.Proof.KIRun
import proofs.«143601_j50706383896918_2_alg».proof.Proof.KIValue
import proofs.«143601_j50706383896918_2_alg».proof.Proof.PayLoss
import Idealize.ShloMosaic.Lib.Pipeline.Value
import Idealize.ShloMosaic.Lib.StableHlo.Run

set_option maxRecDepth 16384

noncomputable section

namespace Cert.KernelIdeal.Bridge

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.Run

variable (m : (ℓ : Loc nD τ sig) → Buf (Elt Ideal) ℓ) (ρ : Dev nD → PrngReg)

/-- The features and the labels as launched, as arrays of extended reals. -/
abbrev feat (c : Dev nD) : Cert.Loss.SX.Idx → EReal := m ((c : Thread nD τ).loc main_arg0)
abbrev labs (c : Dev nD) : Cert.Loss.SY.Idx → EReal := m ((c : Thread nD τ).loc main_arg1)

/-! ## What the call is handed -/

/-- The features in the narrower format are the features. -/
theorem entry_feat (c : Dev nD) : (V1 m ρ c main_v0 : Cert.Loss.SX.Idx → EReal) = feat m c := by
  show StableHlo.after hostOps0 _ (Proc.devRef .tc main_v0) = _
  after_results
  rfl
/-- The labels in the narrower format are the labels. -/
theorem entry_labs (c : Dev nD) : (V1 m ρ c main_v1 : Cert.Loss.SY.Idx → EReal) = labs m c := by
  show StableHlo.after hostOps0 _ (Proc.devRef .tc main_v1) = _
  after_results
  rfl
/-- The row of counts holds each row's number of labels. -/
theorem entry_counts (c : Dev nD) (j : Fin 4096) : V1 m ρ c main_v3 (ix2 (0 : Fin 1) j) = Cert.Loss.count (labs m c) j := by
  have e : V1 m ρ c main_v3 = broadcastInDim S1x4096 ![1] Facts₀.bcast_S4096_S1x4096_1
      (Host.reduceAdd (F := Ideal) (labs m c) (constant (F := Ideal) S_ .f32 0x00000000#32) Facts₀.reducesTo_S4096x50_S4096_d1 Facts₀.h_S_) := by
    show StableHlo.after hostOps0 _ (Proc.devRef .tc main_v3) = _
    after_results
  rw [e]
  exact Cert.PayLoss.counts_entry (labs m c) j

/-! ## Every stored row is its row loss -/

/-- The row a point's block row is: the two spellings agree. -/
theorem row_eq (t : Fin cfg0.N) (p : Fin 256) : Cert.PayLoss.row (grid0.coords t) p = rowOf t p :=
  Fin.ext (by rw [Cert.PayLoss.row_val, rowOf_val, coords_val])

/-- At point `t` the stored value's entry `p` is the row loss of row 256·t + p: the loads take the whole staging
    buffers, which hold the arrays' blocks, and the stored value at an entry is the specification's row loss. -/
theorem stored_row (c : Dev nD) (t : Fin cfg0.N) (p : Fin 256) :
    stored (F := Ideal) (grid0.coords t) (iblk (V1 m ρ) c 0 t) (iblk (V1 m ρ) c 1 t) (iblk (V1 m ρ) c 2 t) (iblk (V1 m ρ) c 3 t)
        (iblk (V1 m ρ) c 4 t) (ix1 p)
      = Cert.Loss.rowLoss (feat m c) (labs m c) (rowOf t p) := by
  have hz2 : (![0, 0] : Fin 2 → Nat) = fun _ => 0 := by
    funext a; match a with | ⟨0, _⟩ => rfl | ⟨1, _⟩ => rfl
  unfold stored
  simp only [View.ld_unit_zero (S := S256x128) hz2, View.ld_unit_zero (S := S4096x128) hz2, View.ld_unit_zero (S := S256x50) hz2,
    View.ld_unit_zero (S := S4096x50) hz2, View.ld_unit_zero (S := S1x4096) hz2]
  rw [← row_eq t p]
  exact Cert.PayLoss.payload_row (grid0.coords t) _ _ _ _ _ (feat m c) (labs m c)
    (fun p k => (iblk0_ix (V1 m ρ) c t p k).trans (by rw [row_eq t p]; exact congrFun (entry_feat m ρ c) _))
    (fun j k => (iblk1_at (V1 m ρ) c t (ix2 j k)).trans (congrFun (entry_feat m ρ c) _))
    (fun p k => (iblk2_ix (V1 m ρ) c t p k).trans (by rw [row_eq t p]; exact congrFun (entry_labs m ρ c) _))
    (fun j k => (iblk3_at (V1 m ρ) c t (ix2 j k)).trans (congrFun (entry_labs m ρ c) _))
    (fun j => (iblk4_at (V1 m ρ) c t (ix2 (0 : Fin 1) j)).trans (entry_counts m ρ c j))
    p

/-! ## The result -/

/-- The call's result array holds the row losses. -/
theorem res_rows (c : Dev nD) : res m ρ c = fun i : S4096.Idx => Cert.Loss.rowLoss (feat m c) (labs m c) (i 0) :=
  result_rows (V1 m ρ) c (feat m c) (labs m c) (stored_row m ρ c)

/-- The program's result is the specification's total. -/
theorem result_total (c : Dev nD) :
    W3 m ρ c (Proc.devRef .tc main_v8) = fun _ => Cert.Loss.total (feat m c) (labs m c) := by
  show StableHlo.after hostOps1 _ (Proc.devRef .tc main_v8) = _
  after_results
  rw [show W2 m ρ c (Proc.devRef .tc main_v4) = res m ρ c from V2_res m ρ c]
  exact Cert.PayLoss.tail_total (feat m c) (labs m c) (res m ρ c) (fun r => by rw [res_rows])

/-- THE RUN WITH ITS VALUE: the idealized kernel terminates with the specification's total of the launched features
    and labels in its result, and the two argument arrays as launched. -/
theorem run_total : θ_run defs (onTc (τ := τ) (main (F := Ideal))) ⟨m, fun _ => 0, ρ⟩ (fun r => ∀ c : Dev nD,
      r.2.mem ((c.tc : Thread nD τ).loc main_v8) = (fun _ => Cert.Loss.total (feat m c) (labs m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_v8 (by decide))).trans (result_total m ρ c),
      (h c _ (mem_uc main_arg0 (by decide))).trans (W3_main_arg0 m ρ c),
      (h c _ (mem_uc main_arg1 (by decide))).trans (W3_main_arg1 m ρ c)⟩) (run m ρ)

end Cert.KernelIdeal.Bridge

end
-- ==== Proof.RefLoss.lean ====
/-
  The reference's result is the loss of Spec.lean.

  Each stage of the reference is read at an index (r, c) or r and identified with the specification's entry of the
  same name: the Gram entry over the temperature (score), its row maximum (rowMax), the shifted logit, the
  off-diagonal mask 1 - [r = c], the normalised label overlap, the masked partition sum, the log-probability, the
  positives' indicator, the row loss, and last the halved negated mean.
-/
import proofs.«143601_j50706383896918_2_alg».proof.Proof.Spec
import proofs.«143601_j50706383896918_2_alg».proof.Proof.Gen.ReferenceIdeal.Read
import Idealize.ShloMosaic.PureOps.Ideal.Laws
import Idealize.ShloMosaic.Lib.ValueIdx
import Idealize.ShloMosaic.Lib.Pipeline.Value
import Idealize.ShloMosaic.Lib.ValueLayout

noncomputable section

namespace Cert.RefLoss

open Idealize.ShloMosaic Idealize.ShloMosaic.ValueIdx
open Cert.ReferenceIdeal Cert.ReferenceIdeal.Gen Cert.ReferenceIdeal.Read
open scoped BigOperators

abbrev XT := (⟨S4096x128, .f32⟩ : BufTy).Contents (Elt Ideal)
abbrev LT := (⟨S4096x50, .f32⟩ : BufTy).Contents (Elt Ideal)

/-- The Gram entry of the features. -/
theorem gram_apply (x : XT) (r c : Fin 4096) :
    val_main_v10 (F := Ideal) x (ix2 r c) = ∑ k : Fin 128, x (ix2 r k) * x (ix2 c k) := by
  rw [val_main_v10_apply]
  refine Finset.sum_congr rfl fun k _ => ?_
  rw [val_main_v9_apply]
  have e1 : lidx_main_v10 (ix2 r c) k = ix2 r k :=
    funext fun a => Fin.ext (by match a with | ⟨0, _⟩ => rfl | ⟨1, _⟩ => rfl)
  have e2 : idx_main_v9 (ridx_main_v10 (ix2 r c) k) = ix2 c k :=
    funext fun a => Fin.ext (by match a with | ⟨0, _⟩ => rfl | ⟨1, _⟩ => rfl)
  rw [e1, e2]

/-- The temperature's word is the real 9395241 / 2^27. -/
theorem ofBits_temp_f32 : Ideal.ofBits .f32 0x3D8F5C29#32 = ((9395241 / 134217728 : ℝ) : EReal) := by
  simp [Ideal.ofBits, Ideal.ieee]
  rw [← EReal.coe_mul]
  congr 1
  norm_num

theorem score_apply (x : XT) (r c : Fin 4096) :
    val_main_v12 (F := Ideal) x (ix2 r c) = Cert.Loss.score x r c := by
  rw [val_main_v12_apply, val_main_v11_apply, val_main_cst_0_apply, gram_apply]
  simp only [Ideal.hostDivf_def, Ideal.ofBits_def]
  rw [ofBits_temp_f32, Ideal.div_coe (by norm_num)]
  unfold Cert.Loss.score Cert.Loss.invT
  congr 2
  norm_num

/-- A row index with a column coordinate put back on the reduced axis is the pair. -/
theorem lift_row (h : S4096x4096.Reduces [1] S4096) (r : Fin 4096) (k : Fin (S4096x4096.size 1)) :
    h.lift (ix1 r) k = ix2 r (⟨k.val, k.isLt⟩ : Fin 4096) := by
  funext c; apply Fin.ext
  fin_cases c <;> rfl

theorem rowMax_apply (x : XT) (r : Fin 4096) :
    val_main_v13 (F := Ideal) x (ix1 r) = Cert.Loss.rowMax x r := by
  unfold val_main_v13
  have h : S4096x4096.Reduces [1] S4096 := by decide
  rw [Host.reduce_eq_fold_single FloatOps.maximumf _ _ reducesTo_S4096x4096_S4096_d1 h h_S_]
  unfold Cert.Loss.rowMax
  have hf : (val_main_v12 (F := Ideal) x ∘ h.lift (ix1 r)) = fun c : Fin 4096 => Cert.Loss.score x r c :=
    funext fun k => by
      show val_main_v12 (F := Ideal) x (h.lift (ix1 r) k) = _
      rw [lift_row h r k]
      exact score_apply x r _
  exact congrArg (fun f => Finset.fold max Cert.Loss.negInf f (Finset.univ : Finset (Fin 4096))) hf

theorem logit_apply (x : XT) (r c : Fin 4096) :
    val_main_v16 (F := Ideal) x (ix2 r c) = Cert.Loss.logit x r c := by
  rw [val_main_v16_apply, val_main_v15_apply, val_main_v14_apply, score_apply]
  have e : idx_main_v14 (idx_main_v15 (ix2 r c)) = ix1 r :=
    funext fun a => Fin.ext (by match a with | ⟨0, _⟩ => rfl)
  rw [e, rowMax_apply]
  rfl

/-- Comparing the two coordinates as 32-bit words decides their equality: both are below 2^32. -/
theorem eye_bit (r c : Fin 4096) :
    IntOp.cmpi .eq (IntOp.addi (BitVec.ofNat 32 r.val) 0#32) (BitVec.ofNat 32 c.val) = if r = c then 1#1 else 0#1 := by
  by_cases h : r = c
  · subst h; simp [IntOp.cmpi, IntOp.addi]
  · rw [if_neg h]
    have hne : ¬ (BitVec.ofNat 32 r.val = BitVec.ofNat 32 c.val) := by
      intro e
      have e' := congrArg BitVec.toNat e
      simp only [BitVec.toNat_ofNat] at e'
      have hr := r.isLt
      have hc := c.isLt
      rw [Nat.mod_eq_of_lt (by omega), Nat.mod_eq_of_lt (by omega)] at e'
      exact h (Fin.ext e')
    have hb : (BitVec.ofNat 32 r.val == BitVec.ofNat 32 c.val) = false := beq_eq_false_iff_ne.mpr hne
    simp [IntOp.cmpi, IntOp.addi, hb]

theorem offDiag_apply (r c : Fin 4096) :
    val_main_v24 (F := Ideal) (ix2 r c) = Cert.Loss.offDiag r c := by
  rw [val_main_v24_apply, val_main_v23_apply, val_main_cst_2_apply, val_main_v22_apply, val_main_v21_apply,
    val_main_v20_apply, val_main_v19_apply, val_main_c_apply, val_main_v17_apply, val_main_v18_apply]
  show Ideal.ofBits .f32 0x3F800000#32
      - (((IntOp.cmpi .eq (IntOp.addi (BitVec.ofNat 32 r.val) 0#32) (BitVec.ofNat 32 c.val)).toNat : ℝ) : EReal) = _
  rw [Cert.Loss.ofBits_one_f32, eye_bit]
  unfold Cert.Loss.offDiag
  by_cases h : r = c
  · rw [if_pos h, if_pos h]
    show (1 : EReal) - (((1 : ℕ) : ℝ) : EReal) = 0
    rw [Nat.cast_one, EReal.coe_one, ← EReal.coe_one, ← EReal.coe_sub, sub_self, EReal.coe_zero]
  · rw [if_neg h, if_neg h]
    show (1 : EReal) - (((0 : ℕ) : ℝ) : EReal) = 1
    rw [Nat.cast_zero, EReal.coe_zero, sub_zero]

theorem count_apply (l : LT) (r : Fin 4096) :
    val_main_v2 (F := Ideal) l (ix1 r) = Cert.Loss.count l r := by
  rw [val_main_v2_apply, val_main_cst_apply]
  simp only [Ideal.ofBits_def]
  rw [Ideal.ofBits_zero_f32, zero_add]
  unfold Cert.Loss.count
  refine Finset.sum_congr rfl fun k _ => ?_
  exact congrArg l (funext fun a => Fin.ext (by match a with | ⟨0, _⟩ => rfl | ⟨1, _⟩ => rfl))

/-- The labels' Gram entry. -/
theorem lgram_apply (l : LT) (r c : Fin 4096) :
    val_main_v1 (F := Ideal) l (ix2 r c) = ∑ k : Fin 50, l (ix2 r k) * l (ix2 c k) := by
  rw [val_main_v1_apply]
  refine Finset.sum_congr rfl fun k _ => ?_
  rw [val_main_v0_apply]
  have e1 : lidx_main_v1 (ix2 r c) k = ix2 r k :=
    funext fun a => Fin.ext (by match a with | ⟨0, _⟩ => rfl | ⟨1, _⟩ => rfl)
  have e2 : idx_main_v0 (ridx_main_v1 (ix2 r c) k) = ix2 c k :=
    funext fun a => Fin.ext (by match a with | ⟨0, _⟩ => rfl | ⟨1, _⟩ => rfl)
  rw [e1, e2]

theorem overlap_apply (l : LT) (r c : Fin 4096) :
    val_main_v25 (F := Ideal) l (ix2 r c) = Cert.Loss.overlap l r c := by
  rw [val_main_v25_apply, val_main_v8_apply, val_main_v7_apply, val_main_v5_apply, val_main_v3_apply,
    val_main_v6_apply, val_main_v4_apply, lgram_apply, offDiag_apply]
  have e1 : idx_main_v3 (idx_main_v5 (ix2 r c)) = ix1 r :=
    funext fun a => Fin.ext (by match a with | ⟨0, _⟩ => rfl)
  have e2 : idx_main_v4 (idx_main_v6 (ix2 r c)) = ix1 c :=
    funext fun a => Fin.ext (by match a with | ⟨0, _⟩ => rfl)
  rw [e1, e2, count_apply, count_apply]
  rfl

theorem partition_apply (x : XT) (r : Fin 4096) :
    val_main_v28 (F := Ideal) x (ix1 r) = Cert.Loss.partition x r := by
  rw [val_main_v28_apply, val_main_cst_3_apply]
  simp only [Ideal.ofBits_def]
  rw [Ideal.ofBits_zero_f32, zero_add]
  unfold Cert.Loss.partition
  refine Finset.sum_congr rfl fun k _ => ?_
  have e : idx_main_v28 (ix1 r) k = ix2 r k :=
    funext fun a => Fin.ext (by match a with | ⟨0, _⟩ => rfl | ⟨1, _⟩ => rfl)
  rw [e, val_main_v27_apply, val_main_v26_apply, logit_apply, offDiag_apply]
  rfl

theorem logProb_apply (x : XT) (r c : Fin 4096) :
    val_main_v34 (F := Ideal) x (ix2 r c) = Cert.Loss.logProb x r c := by
  rw [val_main_v34_apply, val_main_v33_apply, val_main_v32_apply, val_main_v31_apply, val_main_v29_apply,
    val_main_v30_apply, val_main_cst_4_apply, logit_apply]
  have e : idx_main_v29 (idx_main_v33 (ix2 r c)) = ix1 r :=
    funext fun a => Fin.ext (by match a with | ⟨0, _⟩ => rfl)
  rw [e, partition_apply]
  rfl

theorem positive_apply (l : LT) (r c : Fin 4096) :
    val_main_v37 (F := Ideal) l (ix2 r c) = Cert.Loss.positive l r c := by
  rw [val_main_v37_apply, val_main_v36_apply, val_main_v35_apply, val_main_cst_5_apply, val_main_call0_v1_apply,
    val_main_call0_v0_apply, val_main_cst_6_apply, overlap_apply]
  simp only [Ideal.ofBits_def, Ideal.cmpf_def]
  rw [Ideal.ofBits_zero_f32, Cert.Loss.ofBits_one_f32]
  unfold Cert.Loss.positive Scalar.select Ideal.cmp
  by_cases h : 0 < Cert.Loss.overlap l r c
  · rw [if_pos h]
    simp [h]
  · rw [if_neg h]
    simp [h]

theorem rowLoss_apply (x : XT) (l : LT) (r : Fin 4096) :
    val_main_v43 (F := Ideal) x l (ix1 r) = Cert.Loss.rowLoss x l r := by
  rw [val_main_v43_apply, val_main_v42_apply, val_main_v41_apply, val_main_cst_9_apply, val_main_v39_apply,
    val_main_v40_apply, val_main_cst_7_apply, val_main_cst_8_apply]
  simp only [Ideal.ofBits_def]
  rw [Ideal.ofBits_zero_f32, zero_add, zero_add]
  have e39 : ∀ k : Fin 4096, idx_main_v39 (ix1 r) k = ix2 r k := fun k =>
    funext fun a => Fin.ext (by match a with | ⟨0, _⟩ => rfl | ⟨1, _⟩ => rfl)
  have e40 : ∀ k : Fin 4096, idx_main_v40 (ix1 r) k = ix2 r k := fun k =>
    funext fun a => Fin.ext (by match a with | ⟨0, _⟩ => rfl | ⟨1, _⟩ => rfl)
  have s1 : ∑ k : Fin 4096, val_main_v38 (F := Ideal) x l (idx_main_v39 (ix1 r) k)
      = ∑ c : Fin 4096, Cert.Loss.overlap l r c * Cert.Loss.logProb x r c :=
    Finset.sum_congr rfl fun k _ => by
      rw [e39 k, val_main_v38_apply, overlap_apply, logProb_apply]; rfl
  have s2 : ∑ k : Fin 4096, val_main_v37 (F := Ideal) l (idx_main_v40 (ix1 r) k)
      = ∑ c : Fin 4096, Cert.Loss.positive l r c :=
    Finset.sum_congr rfl fun k _ => by
      rw [e40 k, positive_apply]
  rw [s1, s2]
  rfl

/-- The word of 2.0 is the real 2. -/
theorem ofBits_two_f32 : Ideal.ofBits .f32 0x40000000#32 = ((2 : ℝ) : EReal) := by
  simp [Ideal.ofBits, Ideal.ieee, -EReal.coe_mul]
  norm_num

/-- 2 to the power 1 is 2, on the words the program carries. -/
theorem pow_two_one :
    Ideal.pow (Ideal.ofBits .f32 0x40000000#32) (Ideal.ofBits .f32 0x3F800000#32) = Ideal.ofBits .f32 0x40000000#32 := by
  rw [Cert.Loss.ofBits_one_f32, ofBits_two_f32, ← EReal.coe_one, Ideal.pow_coe_coe]
  exact congrArg _ (Real.rpow_one 2)

/-- The row indices are the rank-one index set. -/
def rowEquiv : Fin 4096 ≃ S4096.Idx where
  toFun := ix1
  invFun j := j 0
  left_inv _ := rfl
  right_inv j := (eq_ix1 j).symm

theorem total_apply (x : XT) (l : LT) (i : S_.Idx) :
    val_main_v48 (F := Ideal) x l i = Cert.Loss.total x l := by
  rw [val_main_v48_apply, val_main_v47_apply, val_main_cst_12_apply, val_main_cst_13_apply, val_main_v46_apply,
    val_main_v45_apply, val_main_cst_11_apply, val_main_v44_apply, val_main_cst_10_apply]
  simp only [Ideal.ofBits_def, Ideal.hostDivf_def, Ideal.hostPowf_def, Ideal.hostNegf_def, Ideal.negf_def]
  rw [Ideal.ofBits_zero_f32, zero_add, pow_two_one]
  have s : ∑ j : S4096.Idx, val_main_v43 (F := Ideal) x l j = ∑ r : Fin 4096, Cert.Loss.rowLoss x l r := by
    rw [← Equiv.sum_comp rowEquiv]
    exact Finset.sum_congr rfl fun r _ => rowLoss_apply x l r
  rw [s]
  rfl

/-- The reference's result is the specification's loss. -/
theorem ref_total (x : (⟨Cert.ReferenceIdeal.S4096x128, .f32⟩ : BufTy).Contents (Elt Ideal))
    (l : (⟨Cert.ReferenceIdeal.S4096x50, .f32⟩ : BufTy).Contents (Elt Ideal)) :
    Cert.ReferenceIdeal.Read.val_main_v48 (F := Ideal) x l = fun _ => Cert.Loss.total x l :=
  funext fun i => total_apply x l i

end Cert.RefLoss

end
-- ==== Proof.lean ====
/-
  The certificate's five claims for a supervised-contrastive loss with a label-overlap mask, computed by a
  row-tiled kernel and by a whole-array reference.

  Both programs compute, for features x : [4096, 128] and multi-hot labels l : [4096, 50], the function
  `Cert.Loss.total x l` of Spec.lean: scaled Gram scores shifted by their row maximum, the diagonal masked out of
  the partition sum and of the label-overlap weights, a per-row quotient, and minus the mean of the rows, halved.
    * The kernel handles 256 rows per grid point. It multiplies the Gram scores by a constant that is the f32
      rounding of 1/0.07; the reference divides by the f32 value of 0.07. The kernel's constant is NAMED the exact
      reciprocal of that f32 value (the one ledger entry, `preserves`), and on the extended reals division by a
      nonzero real is multiplication by its reciprocal, so the two scores are one number.
    * The diagonal mask is a select on "row index = column index" in the kernel and 1 - eye in the reference; row
      sums and maxima are lane reductions in the kernel and host reductions in the reference; both are the same
      finite sums and folds of max on the extended reals. No law used needs the inputs to be finite, so the
      precondition is never opened.
    * The frames: the kernel's two whole-array operands are each read through two windows of the pipeline (a row
      block and the whole array), so each window holds half of the array's share for the duration of the call.
-/
import proofs.«143601_j50706383896918_2_alg».proof.Defs
import proofs.«143601_j50706383896918_2_alg».proof.Proof.Gen.Kernel
import proofs.«143601_j50706383896918_2_alg».proof.Proof.Gen.KernelIdeal
import proofs.«143601_j50706383896918_2_alg».proof.Proof.Gen.ReferenceIdeal
import proofs.«143601_j50706383896918_2_alg».proof.Proof.Gen.ReferenceIdeal.Run
import proofs.«143601_j50706383896918_2_alg».proof.Proof.Gen.ReferenceIdeal.Read
import proofs.«143601_j50706383896918_2_alg».proof.Proof.Gen.Pre_finite_inputs
import proofs.«143601_j50706383896918_2_alg».proof.Proof.KRun
import proofs.«143601_j50706383896918_2_alg».proof.Proof.KIRun
import proofs.«143601_j50706383896918_2_alg».proof.Proof.Bridge
import proofs.«143601_j50706383896918_2_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Run.frame m ρ
/-- So does the idealized kernel. -/
theorem frame_ki : Cert.frame_KernelIdeal := fun m ρ _ => Cert.KernelIdeal.Run.frame m ρ
/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the kernel's scale constant, whose f32 word rounds the reciprocal of the temperature,
    denotes at the ideal instance exactly the reciprocal of the temperature's f32 value. -/
theorem preserves : Cert.preserves_Kernel_KernelIdeal :=
  IdealRules.named_const.statement Cert.KernelIdeal.κ "inv_t" .f32 0x41649249#32 ((134217728 / 9395241 : ℝ) : EReal) rfl

/-- Both idealized programs end with `Cert.Loss.total` of the same features and labels in their results. -/
theorem algebraic : Cert.algebraic_KernelIdeal_ReferenceIdeal := by
  intro m ρ m' ρ' _ hagree
  refine ⟨fun c => fun _ => Cert.Loss.total (Cert.KernelIdeal.Bridge.feat m c) (Cert.KernelIdeal.Bridge.labs m c),
    Cert.KernelIdeal.Bridge.run_total m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.RefLoss.ref_total, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
